-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x1024 : Shape := ⟨2, ![1, 1024]⟩
abbrev S2x2048x3072 : Shape := ⟨3, ![2, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S1024x3072, .bf16⟩
  | .hbm, ⟨8, _⟩ => ⟨S1024x1024, .bf16⟩
  | .hbm, ⟨9, _⟩ => ⟨S1x3072, .f32⟩
  | .hbm, ⟨10, _⟩ => ⟨S4096x3072, .f32⟩
  | .hbm, ⟨11, _⟩ => ⟨S2x2048x3072, .f32⟩
  | .hbm, ⟨12, _⟩ => ⟨S2x2048x1024, .bf16⟩
  | .hbm, ⟨13, _⟩ => ⟨S4096x1024, .bf16⟩
  | .hbm, ⟨14, _⟩ => ⟨S1x1024, .f32⟩
  | .hbm, ⟨15, _⟩ => ⟨S4096x1024, .f32⟩
  | .hbm, ⟨16, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x512x128, .bf16⟩
  | .local _ .vmem, ⟨13, _⟩ => ⟨S1x512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x3072_S2x2048x3072 : S4096x3072.ShapeCasts S2x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S1024_S1x1024 : S1024.ShapeCasts S1x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .f32 = 32 ∨ (Rect.block (s := S4096x3072) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .f32 = 32 ∨ (Rect.block (s := S2x2048x3072) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .f32 = 32 ∨ (Rect.block (s := S2x2048x3072) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .f32 = 32 ∨ (Rect.block (s := S2x2048x3072) S1x2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x64x2048, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | .hbm, ⟨41, _⟩ => ⟨S1x1x1024, .f32⟩
  | .hbm, ⟨42, _⟩ => ⟨S2x2048x1024, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x64x2048_S2x2048x16x64_0_3_1_2 : S2x16x64x2048.Transposes [0, 3, 1, 2] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x64_S2x16x2048x2048_S2x16x64x2048_2_3_3_2_01_01_wf : DotDims.WF S2x16x2048x64 S2x16x2048x2048 S2x16x64x2048 [2] [3] [3] [2] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x64_S2x16x2048x2048_S2x16x64x2048_2_3_3_2_01_01 : DotDims S2x16x2048x64 S2x16x2048x2048 S2x16x64x2048 where
  lhsContracting := [2]
  rhsContracting := [3]
  lhsNonContracting := [3]
  rhsNonContracting := [2]
  lhsBatch := [0, 1]
  rhsBatch := [0, 1]
  wf := dot_S2x16x2048x64_S2x16x2048x2048_S2x16x64x2048_2_3_3_2_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.K.Dats.lean ====
/-
  The three kernel regions at a PARAMETER `V` — the TensorCore's buffer contents when a region is entered —, at any
  float instance: each window's block at a grid point as a read of its array through the block's rectangle; what each
  body leaves in its output window's staging buffer, as a function of the three input blocks; and per region the data
  the pipeline's launch theorems take: the arrays as the region finds them, after the body each input buffer still at
  its block and the output buffer at the body's result, nothing owed.

  Region 0 multiplies a 512-row block of the input by a 1024-column block of the projection matrix and adds the
  bias row; region 2 does the same for the output projection. Region 1 reads a 512-row block of queries and the whole
  key and value columns of one pair of heads — three windows of ONE array — and writes the attended values of
  that pair; the array's full share is dealt among the three reading windows in three disjoint parts.
-/
import proofs.«154701_j71133248356497_2_alg».proof.Proof.Gen.Kernel.Launch
import proofs.«154701_j71133248356497_2_alg».proof.Proof.Gen.Kernel.Skeleton
import proofs.«154701_j71133248356497_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Transfers

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body reads and writes each staging buffer whole. -/
abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S512x1024 := Rect.unit (s := S512x1024) ![0, 0] S512x1024.size inb_S512x1024_S512x1024_0_0

/-- The output buffer after the body: the product of the row block with the column block plus the bias row, stored whole. -/
def out0_3 (x0 : Vec F S512x1024 .bf16) (x1 : Vec F S1024x1024 .bf16) (x2 : Vec F S1x1024 .f32) : Vec F S512x1024 .f32 :=
  View.canon [⟨r0_3, k0_pay1 (View.ld x0 r0_0) (View.ld x1 r0_1) (View.ld x2 r0_2)⟩]

theorem cover0_3 (p0 : Vec F S512x1024 .f32) (y : S512x1024.Idx) :
    ∃ pc ∈ ([⟨r0_3, p0⟩] : List (View.Piece (Elt F) S512x1024 .f32)), y ∈ pc.1.set :=
  View.cover_of_tiled [⟨r0_3, p0⟩] S512x1024.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: attention for a pair of heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-- The output buffer after the body: the attended values of the two heads side by side, stored whole. -/
def out1_3 (x0 : Vec F S1x512x128 .f32) (x1 : Vec F S1x2048x128 .f32) (x2 : Vec F S1x2048x128 .f32) : Vec F S1x512x128 .bf16 :=
  View.canon [⟨r1_3, k1_pay1 (k1_pay5 (View.ld x0 r1_0) (View.ld x1 r1_1) (View.ld x2 r1_2)) (k1_pay6 (View.ld x2 r1_2))
    (k1_pay7 (View.ld x0 r1_0) (View.ld x1 r1_1))⟩]

theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

/-- The three parts of the full share the reading windows hold of their one array: its right half, the right half of
    its left half, and what is left. -/
abbrev qA : PosShare TreeShare := (fullShare : PosShare TreeShare).right
abbrev qB : PosShare TreeShare := (fullShare : PosShare TreeShare).left.right
abbrev qC : PosShare TreeShare := (fullShare : PosShare TreeShare).left.left

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => qA
    | ⟨1, _⟩ => qB
    | ⟨2, _⟩ => qC
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the output projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Chain.lean ====
/-
  The buffer contents at each of @main's segment boundaries, a fold from the launch memory: a host stretch applies its
  operations; a region leaves each of its arrays at what its write-backs make of it — the inputs as entered, the
  output every flushed block overwritten — and every other buffer as entered. Region 1 reads ONE array through three
  windows and writes another, so its exit contents change that one output buffer only.
  Then the proof data of the three pipelines, each at its region's entry contents.
-/
import proofs.«154701_j71133248356497_2_alg».proof.Proof.K.Dats

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its output array at what the write-backs leave, everything else as entered. -/
def W4 (c : Dev nD) : Valuation τ sig (Elt F) :=
  Function.update (W3 m ρ c) (Proc.devRef .tc main_v7) ((dat1 (V3 m ρ) c).arrAt 3 cfg1.N)
theorem W4_out (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what the program returns with. -/
abbrev W7 : Dev nD → Valuation τ sig (Elt F) := fun c => StableHlo.after hostOps3 (W6 m ρ c)

/-! ## The proof data family -/

/-- No pipeline has a prefetched table. -/
abbrev admH : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c

end Cert.Kernel.Hand

end
-- ==== Proof.LibSharedFrame.lean ====
/-
  The frame run of a one-region TensorCore program whose @main continues after the region with straight lines of host
  operations, for a pipeline whose windows may SHARE an array (one operand handed to the kernel through several input
  windows): the arrays behind the windows need not be pairwise distinct buffers.

  With distinct arrays the buffers behind them are the windows' arrays, one for one. When windows share an array the
  DISTINCT buffers behind the arrays (`arrBufs`) are fewer than the windows, and how each buffer's full share is dealt among
  the windows on it is for the caller to say: once at the region's entry (the buffers make the proof data's arrays) and,
  both ways, at the region's exit (the proof data's arrays are the buffers again, at named contents). Between the two the
  lines after the region run within ALL the unscoped TensorCore buffers, held whole — the buffers behind the arrays at
  their exit contents, every other one at its entry contents —, write no array, and leave each buffer at the lines'
  `StableHlo.after` from those contents.
-/
import Idealize.ShloMosaic.Lib.Pipeline.FrameSuffix

noncomputable section

namespace Cert.SharedFrame

open Idealize.ShloMosaic Idealize.ShloMosaic.Pipeline
open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

/-! ## The lines after the region, within every unscoped buffer -/

section Tail

variable {Λ₀ : Idealize.SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

/-- Every unscoped TensorCore buffer held whole at `Wv` is the distinct buffers behind the windows' arrays at `Wv` and
    the buffers that bypass the region at `Wv` — the arrays distinct or not (`hun`: they are unscoped). -/
theorem held_ucRefs_split {gr : Nat} {W : Nat} (win : Fin W → WinSpec sig gr) (hun : ∀ w, (arrRef win w).isScoped = false)
    (c : Dev nD) (Wv : Valuation τ sig Val) :
    (StableHlo.held (c.tc : Thread nD τ) (ucRefs τ sig) Wv : sProp 𝕄)
      = iprop(arrBufs win c (fun b => Wv (Proc.devRef .tc b)) ∗ unscopedRest win c (fun b => Wv (Proc.devRef .tc b))) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  rw [← unscopedBufs_held (Ix := Ix) (Name := Name) (U := U) (Lvl := Lvl) c Wv]
  unfold unscopedBufs unscopedRest arrBufs
  rw [bigSep_sdiff_split hA]
  rfl

/-- THE LINES AFTER THE REGION when windows may share an array. The caller holds the region boundary, some resource `A`
    that IS the distinct buffers behind the arrays whole at contents `Wv` (`hA₁`, `hA₂`: both ways), and the bypassing
    buffers at `V₀`, with which `Wv` agrees off the arrays (`hrest`). The lines touch unscoped TensorCore buffers only
    (`hsub`) and write no array (`hkeep`); they hand back `A` and the bypassing buffers at `StableHlo.after` of the
    lines from `Wv`. -/
theorem tail_seqs_shared [Preorder Lvl] {gr : Nat} {W : Nat} (win : Fin W → WinSpec sig gr) (hun : ∀ w, (arrRef win w).isScoped = false)
    (c : Dev nD) (V₀ Wv : Valuation τ sig Val)
    (hrest : ∀ b : Ref sig .tc, (∀ w, arrRef win w ≠ b) → Wv (Proc.devRef .tc b) = V₀ (Proc.devRef .tc b))
    (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef win w) ∉ op.writes)
    (A : sProp 𝕄)
    (hA₁ : A ⊢ arrBufs win c (fun b => Wv (Proc.devRef .tc b)))
    (hA₂ : (arrBufs win c (fun b => Wv (Proc.devRef .tc b)) : sProp 𝕄) ⊢ A)
    (Q' : PUnit → sProp 𝕄) :
    iprop((iprop(A ∗ unscopedRest win c (fun b => StableHlo.after opss.flatten Wv (Proc.devRef .tc b))) -∗ Q' ⟨⟩)
        ∗ boundary (c.tc : Thread nD τ) ∗ A ∗ unscopedRest win c (fun b => V₀ (Proc.devRef .tc b)))
      ⊢ wp frame (wpE 𝔻 𝕍 (c.tc : Thread nD τ) none) Set.univ (chain (opss.map StableHlo.seq)) Q' := by
  classical
  -- off the arrays the exit contents are the entry contents
  have hR : (unscopedRest win c (fun b => V₀ (Proc.devRef .tc b)) : sProp 𝕄) = unscopedRest win c (fun b => Wv (Proc.devRef .tc b)) := by
    unfold unscopedRest
    exact bigSep_congr fun b hb => by
      beta_reduce
      rw [hrest b fun w e => (Finset.mem_sdiff.mp hb).2 (Finset.mem_image.mpr ⟨w, Finset.mem_univ _, e⟩)]
  -- no line writes an array: the buffers behind the arrays keep their contents
  have hB : (arrBufs win c (fun b => StableHlo.after opss.flatten Wv (Proc.devRef .tc b)) : sProp 𝕄)
      = arrBufs win c (fun b => Wv (Proc.devRef .tc b)) := by
    unfold arrBufs
    exact bigSep_congr fun b hb => by
      obtain ⟨w, -, rfl⟩ := Finset.mem_image.mp hb
      beta_reduce
      rw [StableHlo.after_of_forall_not_mem _ _ fun op hop => ?_]
      obtain ⟨ops, hops, hop⟩ := List.mem_flatten.mp hop
      exact hkeep ops hops op hop w
  have hW := held_ucRefs_split (Ix := Ix) (Name := Name) (U := U) (Lvl := Lvl) win hun c Wv
  have hW' := held_ucRefs_split (Ix := Ix) (Name := Name) (U := U) (Lvl := Lvl) win hun c (StableHlo.after opss.flatten Wv)
  rw [hB] at hW'
  rw [← List.append_nil (opss.map StableHlo.seq), hR]
  iintro ⟨Hk, Hb, HA, HZ⟩
  iapply (wp_seqs_then pcs defs₀ 𝒱₀ c (ucRefs τ sig) [] opss hsub hfresh Wv) $$ [Hb HA HZ]
  · rw [hW]
    isplitl [Hb]; · iexact Hb
    isplitl [HA]; · iapply hA₁; iexact HA
    iexact HZ
  iintro Hb
  rw [chain_nil, wp_pure, hW']
  imodintro
  iapply Hk
  icases Hb with ⟨-, HA, HZ⟩
  isplitl [HA]; · iapply hA₂; iexact HA
  iexact HZ

end Tail

/-! ## The frame run around the region -/

section Frame

variable {Λ₀ : Idealize.SL.Sem.Labels} {P : Type} [Fintype P] [DecidableEq P] [∀ e, Nonempty (Val e)]

local notation "𝕄" => MT nD τ sig Unit Val ℕ (UR sig nD τ) ℕ

/-- THE FRAME RUN of a kernel of the class whose @main continues after the region with the host lines `opss` (`hmain`), for a
    pipeline that prefetches nothing and whose windows may SHARE ARRAYS (`hw`: the arrays unscoped, not necessarily distinct).
    In place of every array held at the full share, the caller says how the distinct buffers behind the arrays, whole at
    the entry contents `V₀ c`, make the proof data's arrays at entry (`hsplit`), and that at the region's exit the proof
    data's arrays ARE those buffers whole at contents `W c` (`hjoin`), every buffer that is no array holding under `W c` what
    it held at entry (`hWrest`). The lines touch unscoped TensorCore buffers only (`hsub`) and write no array (`hkeep`).
    The post is `FramePost` at the lines' `StableHlo.after` from `W c`: every window's array at `Dat.arrAt … N`, every
    other unscoped buffer at what the lines leave it from the exit contents. -/
theorem θ_run_frame_around_shared
    (cfgs : P → Cfg sig Λ₀) (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, arrBufs (cfgs p).spec c (fun b => V₀ c (Proc.devRef .tc b)) ⊢ (dats p c).arrays ((dats p c).arrAt · 0))
    (W : Dev nD → Valuation τ sig Val)
    (hjoin : ∀ c, (dats p c).arrays ((dats p c).arrAt · (cfgs p).N) ⊣⊢ arrBufs (cfgs p).spec c (fun b => W c (Proc.devRef .tc b)))
    (hWrest : ∀ c (b : Ref sig .tc), (∀ w, arrRef (cfgs p).spec w ≠ b) → W c (Proc.devRef .tc b) = V₀ c (Proc.devRef .tc b))
    (hΦ : ∀ c t, (dats p c).Φ t = ΦA (cfgs p).spec c) :
    θ_run (Pipeline.defs (fun q => (cfgs q).toPCfg (Val := Val)) defs₀) (onTc main) (s₀ m g)
      (FramePost cfgs dats p (fun c b => StableHlo.after opss.flatten (W c) (Proc.devRef .tc b))) := by
  classical
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (W c) (Proc.devRef .tc b)))
    (hX := fun c => by
      rw [unscopedRestP_none]
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' =>
      tail_seqs_shared (fun q => (cfgs q).toPCfg (Val := Val)) defs₀ 𝒱₀ (cfgs p).spec hw.arr_unscoped c (V₀ c) (W c) (hWrest c)
        opss hsub hfresh hkeep _ (hjoin c).mp (hjoin c).mpr Q')
    (QY := fun c s => ∀ b ∈ restRefs sig (cfgs p).spec,
      s.mem ((c.tc : Thread nD τ).loc b) = StableHlo.after opss.flatten (W c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (W c) (Proc.devRef .tc b)) s')
      isplitl [HU] <;> iassumption)
    (hQ := fun s h c => ⟨(h c).1, (h c).2.2⟩)

end Frame

end Cert.SharedFrame

end
-- ==== Proof.K.Shared.lean ====
/-
  Region 1 hands ONE array to the kernel through three reading windows and writes a second array through a fourth.
  The two distinct buffers behind its four windows, each held whole, ARE the pipeline's four arrays: the read array's
  full share is its right half, the right half of its left half, and the rest — one part per reading window, all at the
  same contents — and the written array is held outright. At the region's entry the parts are dealt out; at its exit they
  are collected again, the read array unchanged and the written array at what the write-backs left.
-/
import proofs.«154701_j71133248356497_2_alg».proof.Proof.K.Chain
import proofs.«154701_j71133248356497_2_alg».proof.Proof.LibSharedFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window: three parts of the read array, the written array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{qA} G 0) ∗ (((c : Thread nD τ).loc main_v6) ↦{qB} G 1)
          ∗ (((c : Thread nD τ).loc main_v6) ↦{qC} G 2) ∗ (((c : Thread nD τ).loc main_v7) ↦{fullShare} G 3)) := by
  unfold Dat.arrays
  rw [bigSep_W1]
  rw [(arr_whole1 0).set_eq_univ, (arr_whole1 3).set_eq_univ]
  rfl

/-- The distinct buffers behind the four windows: the read array and the written one. -/
theorem arrBufs1_eq (c : Dev nD) (Vf : (b : Ref sig .tc) → Buf (Elt F) ((c : Thread nD τ).loc b)) :
    (Pipeline.arrBufs spec1 c Vf : sProp 𝕄)
      = iprop((((c : Thread nD τ).loc main_v6) ↦{fullShare} Vf main_v6) ∗ (((c : Thread nD τ).loc main_v7) ↦{fullShare} Vf main_v7)) := by
  unfold Pipeline.arrBufs
  rw [show (Finset.univ.image (Pipeline.arrRef spec1)) = ({main_v6, main_v7} : Finset (Ref sig .tc)) from by decide,
    BI.bigSep_insert (by decide), BI.bigSep_singleton]
  rfl

variable (m : (ℓ : Loc nD τ sig) → Buf (Elt F) ℓ) (ρ : Dev nD → PrngReg)

/-- ENTRY: the read array's full share dealt among the three reading windows, the written array handed over whole. -/
theorem split1 (c : Dev nD) :
    (Pipeline.arrBufs spec1 c (fun b => W3 m ρ c (Proc.devRef .tc b)) : sProp 𝕄)
      ⊢ (dat1 (V3 m ρ) c).arrays ((dat1 (V3 m ρ) c).arrAt · 0) := by
  rw [arrBufs1_eq, arrays1_eq]
  have h1 : ((((c : Thread nD τ).loc main_v6) ↦{(fullShare : PosShare TreeShare)} W3 m ρ c (Proc.devRef .tc main_v6)) : sProp 𝕄)
      ⊣⊢ iprop((((c : Thread nD τ).loc main_v6) ↦{(fullShare : PosShare TreeShare).left} W3 m ρ c (Proc.devRef .tc main_v6))
          ∗ (((c : Thread nD τ).loc main_v6) ↦{(fullShare : PosShare TreeShare).right} W3 m ρ c (Proc.devRef .tc main_v6))) :=
    pointsTo_share (PosShare.mem_left_op_right _)
  have h2 : ((((c : Thread nD τ).loc main_v6) ↦{(fullShare : PosShare TreeShare).left} W3 m ρ c (Proc.devRef .tc main_v6)) : sProp 𝕄)
      ⊣⊢ iprop((((c : Thread nD τ).loc main_v6) ↦{(fullShare : PosShare TreeShare).left.left} W3 m ρ c (Proc.devRef .tc main_v6))
          ∗ (((c : Thread nD τ).loc main_v6) ↦{(fullShare : PosShare TreeShare).left.right} W3 m ρ c (Proc.devRef .tc main_v6))) :=
    pointsTo_share (PosShare.mem_left_op_right _)
  have e1 := h1.1
  have e2 := h2.1
  show _ ⊢ iprop((((c : Thread nD τ).loc main_v6) ↦{qA} W3 m ρ c (Proc.devRef .tc main_v6))
      ∗ (((c : Thread nD τ).loc main_v6) ↦{qB} W3 m ρ c (Proc.devRef .tc main_v6))
      ∗ (((c : Thread nD τ).loc main_v6) ↦{qC} W3 m ρ c (Proc.devRef .tc main_v6))
      ∗ (((c : Thread nD τ).loc main_v7) ↦{fullShare} W3 m ρ c (Proc.devRef .tc main_v7)))
  iintro ⟨H6, H7⟩
  ihave H := e1 $$ H6
  icases H with ⟨HL, HA⟩
  ihave H' := e2 $$ HL
  icases H' with ⟨HC, HB⟩
  isplitl [HA]; · iexact HA
  isplitl [HB]; · iexact HB
  isplitl [HC]; · iexact HC
  iexact H7

/-- Off the written array the exit contents are the entry contents. -/
theorem rest1 (c : Dev nD) :
    (Pipeline.unscopedRest (Ix := Unit) (Name := ℕ) (U := UR sig nD τ) (Lvl := ℕ) spec1 c (V3 m ρ c) : sProp 𝕄)
      = Pipeline.unscopedRest spec1 c (fun b => W4 m ρ c (Proc.devRef .tc b)) := by
  unfold Pipeline.unscopedRest
  exact bigSep_congr fun b hb => by
    beta_reduce
    rw [W4_of_ne m ρ c b fun e => (Finset.mem_sdiff.mp hb).2 (Finset.mem_image.mpr ⟨3, Finset.mem_univ _, e ▸ rfl⟩)]

/-- EXIT: the three parts collected into the read array's full share, unchanged; the written array at what the
    write-backs left. -/
theorem join1 (c : Dev nD) :
    ((dat1 (V3 m ρ) c).arrays ((dat1 (V3 m ρ) c).arrAt · cfg1.N) : sProp 𝕄)
      ⊢ Pipeline.arrBufs spec1 c (fun b => W4 m ρ c (Proc.devRef .tc b)) := by
  rw [arrBufs1_eq, arrays1_eq, (dat1 (V3 m ρ) c).arrAt_in 0 rfl, (dat1 (V3 m ρ) c).arrAt_in 1 rfl, (dat1 (V3 m ρ) c).arrAt_in 2 rfl,
    W4_out, W4_of_ne m ρ c main_v6 (by decide)]
  have h1 : ((((c : Thread nD τ).loc main_v6) ↦{(fullShare : PosShare TreeShare)} W3 m ρ c (Proc.devRef .tc main_v6)) : sProp 𝕄)
      ⊣⊢ iprop((((c : Thread nD τ).loc main_v6) ↦{(fullShare : PosShare TreeShare).left} W3 m ρ c (Proc.devRef .tc main_v6))
          ∗ (((c : Thread nD τ).loc main_v6) ↦{(fullShare : PosShare TreeShare).right} W3 m ρ c (Proc.devRef .tc main_v6))) :=
    pointsTo_share (PosShare.mem_left_op_right _)
  have h2 : ((((c : Thread nD τ).loc main_v6) ↦{(fullShare : PosShare TreeShare).left} W3 m ρ c (Proc.devRef .tc main_v6)) : sProp 𝕄)
      ⊣⊢ iprop((((c : Thread nD τ).loc main_v6) ↦{(fullShare : PosShare TreeShare).left.left} W3 m ρ c (Proc.devRef .tc main_v6))
          ∗ (((c : Thread nD τ).loc main_v6) ↦{(fullShare : PosShare TreeShare).left.right} W3 m ρ c (Proc.devRef .tc main_v6))) :=
    pointsTo_share (PosShare.mem_left_op_right _)
  have e1 := h1.2
  have e2 := h2.2
  show iprop((((c : Thread nD τ).loc main_v6) ↦{qA} W3 m ρ c (Proc.devRef .tc main_v6))
      ∗ (((c : Thread nD τ).loc main_v6) ↦{qB} W3 m ρ c (Proc.devRef .tc main_v6))
      ∗ (((c : Thread nD τ).loc main_v6) ↦{qC} W3 m ρ c (Proc.devRef .tc main_v6))
      ∗ (((c : Thread nD τ).loc main_v7) ↦{fullShare} (dat1 (V3 m ρ) c).arrAt 3 cfg1.N)) ⊢ _
  iintro ⟨HA, HB, HC, H7⟩
  ihave HL := e2 $$ [HC HB]
  · isplitl [HC]; · iexact HC
    iexact HB
  ihave H6 := e1 $$ [HL HA]
  · isplitl [HL]; · iexact HL
    iexact HA
  isplitl [H6]; · iexact H6
  iexact H7

end Cert.Kernel.Hand

end
-- ==== Proof.K.Bodies.lean ====
/- The three kernel bodies as separation-logic triples over whole staging buffers, at any float instance.
   Each body loads its three input buffers whole, computes one value from them and stores it over the whole output
   buffer; so from the inputs at read contents `x0 x1 x2` and the output at anything it ends with the inputs unchanged
   and the output at `outK_3 x0 x1 x2`, the store's value laid over the buffer. -/
import proofs.«154701_j71133248356497_2_alg».proof.Proof.Gen.Kernel.Skeleton
import proofs.«154701_j71133248356497_2_alg».proof.Proof.Gen.Kernel.Points
import proofs.«154701_j71133248356497_2_alg».proof.Proof.K.Dats
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The matmul-plus-bias body of region 0 on whole staging memrefs: with the three inputs at read contents
    `x0 x1 x2` and the output buffer at anything, it runs to the continuation holding the inputs as they were and
    the output at `out0_3 x0 x1 x2` — the one store's payload (the product of the first two plus the broadcast third)
    laid over the whole buffer. -/
theorem sound_kernel0 (c : Dev nD) (E : Set ℕ) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) (i : grid0.Coords) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

set_option maxHeartbeats 1000000 in
/-- The attention body of region 1 on whole staging memrefs: with the query, key and value blocks at read contents
    `x0 x1 x2` and the output buffer at anything, it runs (through the function `k1_part1` it calls, which only loads) to the
    continuation holding the inputs as they were and the output at `out1_3 x0 x1 x2` — the one store's payload (the two
    heads' softmax-weighted values side by side) laid over the whole buffer. -/
theorem sound_kernel1 (c : Dev nD) (E : Set ℕ) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x128 .bf16) (harg6 : arg6.IsWhole)
    (x0 : Vec F S1x512x128 .f32) (x1 : Vec F S1x2048x128 .f32) (x2 : Vec F S1x2048x128 .f32) (K : PUnit → sProp 𝕄) (i : grid1.Coords) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- The matmul-plus-bias body of region 2 on whole staging memrefs: with the three inputs at read contents
    `x0 x1 x2` and the output buffer at anything, it runs to the continuation holding the inputs as they were and
    the output at `out2_3 x0 x1 x2` — the one store's payload (the product of the first two plus the broadcast third)
    laid over the whole buffer. -/
theorem sound_kernel2 (c : Dev nD) (E : Set ℕ) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) (i : grid2.Coords) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.Kernel.Hand

end
-- ==== Proof.K.Oblig.lean ====
/- Per region, at the entry contents `V`: each input window's staging buffer holds its block at every grid point
   (whether the point fetches it or not), and from that the body's triple gives the pipeline's body obligation —
   the body, handed the invariant and the four current staging buffers, returns them with the inputs unchanged
   and the output at the body's result on the three input blocks. At any float instance. -/
import proofs.«154701_j71133248356497_2_alg».proof.Proof.Gen.Kernel.Skeleton
import proofs.«154701_j71133248356497_2_alg».proof.Proof.Gen.Kernel.Points
import proofs.«154701_j71133248356497_2_alg».proof.Proof.K.Bodies
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the fused projection -/

/-- Input window 0's current staging buffer holds its block at every point, fetched there or not: the body leaves the
    block in place, and at a point that does not fetch it the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current staging buffer holds its block at every point, fetched there or not: the body leaves the
    block in place, and at a point that does not fetch it the block index has not moved since the last fetch. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current staging buffer holds its block at every point, fetched there or not: the body leaves the
    block in place, and at a point that does not fetch it the block index has not moved since the last fetch. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- What the body is handed at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the three input buffers hold their blocks (`before0_w`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

/-! ## Region 1: attention for a pair of heads -/

/-- Input window 0's current staging buffer holds its block at every point, fetched there or not: the body leaves the
    block in place, and at a point that does not fetch it the block index has not moved since the last fetch. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current staging buffer holds its block at every point, fetched there or not: the body leaves the
    block in place, and at a point that does not fetch it the block index has not moved since the last fetch. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current staging buffer holds its block at every point, fetched there or not: the body leaves the
    block in place, and at a point that does not fetch it the block index has not moved since the last fetch. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is handed at point `t`: the invariant, what the core owes, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the three input buffers hold their blocks (`before1_w`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-! ## Region 2: the output projection -/

/-- Input window 0's current staging buffer holds its block at every point, fetched there or not: the body leaves the
    block in place, and at a point that does not fetch it the block index has not moved since the last fetch. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1's current staging buffer holds its block at every point, fetched there or not: the body leaves the
    block in place, and at a point that does not fetch it the block index has not moved since the last fetch. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2's current staging buffer holds its block at every point, fetched there or not: the body leaves the
    block in place, and at a point that does not fetch it the block index has not moved since the last fetch. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- What the body is handed at point `t`: the invariant, what the core owes, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the three input buffers hold their blocks (`before2_w`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program, at any float instance: @main is seven segments — four stretches of host operations and
  the three kernel regions between them — each entered from the buffer contents the one before it left. Every weakly
  fair execution terminates, nothing faulting, with every unscoped buffer of each core at the last boundary's contents:
  the arguments as launched (no segment writes one) and the result at the fold of the three regions' write-backs.
-/
import proofs.«154701_j71133248356497_2_alg».proof.Proof.K.Chain
import proofs.«154701_j71133248356497_2_alg».proof.Proof.K.Shared
import proofs.«154701_j71133248356497_2_alg».proof.Proof.K.Oblig
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered with every unscoped buffer at the boundary contents before it, left with
    them at the contents after it. Its arrays are split out of the unscoped buffers and put back at the exit
    contents; the generator register goes into the class invariant and comes out; nothing is owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: as the others, but its three reading windows share one array, whose full share is dealt among them at
    the entry and collected at the exit. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none,
      Cert.SharedFrame.held_ucRefs_split (Ix := Unit) (Name := ℕ) (U := UR sig nD τ) (Lvl := ℕ) spec1 winFacts₀1.arr_unscoped c (W3 m ρ c)]
    iintro ⟨⟨⟨Hb, Hrest⟩, Hp, HO⟩, -, -⟩
    ihave Ha := (split1 m ρ c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [Cert.SharedFrame.held_ucRefs_split (Ix := Unit) (Name := ℕ) (U := UR sig nD τ) (Lvl := ℕ) spec1 winFacts₀1.arr_unscoped c (W4 m ρ c),
      ← rest1 m ρ c]
    iintro ⟨Ha, HO, HY, Hrest⟩
    imodintro
    isplitl [Ha Hrest]
    · isplitl [Ha]; · iapply (join1 m ρ c); iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it, left with
    them at the contents after it. Its arrays are split out of the unscoped buffers and put back at the exit
    contents; the generator register goes into the class invariant and comes out; nothing is owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.K.Args.lean ====
/-
  The argument arrays end as launched: no host operation writes one and no region has one among its arrays, so the
  fold of buffer contents through @main's seven segments, read at an argument's buffer, walks back to the launch memory.
-/
import proofs.«154701_j71133248356497_2_alg».proof.Proof.K.Chain
import proofs.«154701_j71133248356497_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.Kernel.Hand

end
-- ==== Proof.KI.Dats.lean ====
/-
  The three kernel regions at a PARAMETER `V` — the TensorCore's buffer contents when a region is entered —, at any
  float instance: each window's block at a grid point as a read of its array through the block's rectangle; what each
  body leaves in its output window's staging buffer, as a function of the three input blocks; and per region the data
  the pipeline's launch theorems take: the arrays as the region finds them, after the body each input buffer still at
  its block and the output buffer at the body's result, nothing owed.

  Region 0 multiplies a 512-row block of the input by a 1024-column block of the projection matrix and adds the
  bias row; region 2 does the same for the output projection. Region 1 reads a 512-row block of queries and the whole
  key and value columns of one pair of heads — three windows of ONE array — and writes the attended values of
  that pair; the array's full share is dealt among the three reading windows in three disjoint parts.
-/
import proofs.«154701_j71133248356497_2_alg».proof.Proof.Gen.KernelIdeal.Launch
import proofs.«154701_j71133248356497_2_alg».proof.Proof.Gen.KernelIdeal.Skeleton
import proofs.«154701_j71133248356497_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Transfers

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the fused projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body reads and writes each staging buffer whole. -/
abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S512x1024 := Rect.unit (s := S512x1024) ![0, 0] S512x1024.size inb_S512x1024_S512x1024_0_0

/-- The output buffer after the body: the product of the row block with the column block plus the bias row, stored whole. -/
def out0_3 (x0 : Vec F S512x1024 .bf16) (x1 : Vec F S1024x1024 .bf16) (x2 : Vec F S1x1024 .f32) : Vec F S512x1024 .f32 :=
  View.canon [⟨r0_3, k0_pay1 (View.ld x0 r0_0) (View.ld x1 r0_1) (View.ld x2 r0_2)⟩]

theorem cover0_3 (p0 : Vec F S512x1024 .f32) (y : S512x1024.Idx) :
    ∃ pc ∈ ([⟨r0_3, p0⟩] : List (View.Piece (Elt F) S512x1024 .f32)), y ∈ pc.1.set :=
  View.cover_of_tiled [⟨r0_3, p0⟩] S512x1024.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: attention for a pair of heads -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x512x128 := Rect.unit (s := S1x512x128) ![0, 0, 0] S1x512x128.size inb_S1x512x128_S1x512x128_0_0_0
abbrev r1_1 : Rect S1x2048x128 := Rect.unit (s := S1x2048x128) ![0, 0, 0] S1x2048x128.size inb_S1x2048x128_S1x2048x128_0_0_0
abbrev r1_2 : Rect S1x2048x128 := Rect.unit (s := S1x2048x128) ![0, 0, 0] S1x2048x128.size inb_S1x2048x128_S1x2048x128_0_0_0
abbrev r1_3 : Rect S1x512x128 := Rect.unit (s := S1x512x128) ![0, 0, 0] S1x512x128.size inb_S1x512x128_S1x512x128_0_0_0

/-- The output buffer after the body: the attended values of the two heads side by side, stored whole. -/
def out1_3 (x0 : Vec F S1x512x128 .f32) (x1 : Vec F S1x2048x128 .f32) (x2 : Vec F S1x2048x128 .f32) : Vec F S1x512x128 .bf16 :=
  View.canon [⟨r1_3, k1_pay1 (k1_pay5 (View.ld x0 r1_0) (View.ld x1 r1_1) (View.ld x2 r1_2)) (k1_pay6 (View.ld x2 r1_2))
    (k1_pay7 (View.ld x0 r1_0) (View.ld x1 r1_1))⟩]

theorem cover1_3 (p0 : Vec F S1x512x128 .bf16) (y : S1x512x128.Idx) :
    ∃ pc ∈ ([⟨r1_3, p0⟩] : List (View.Piece (Elt F) S1x512x128 .bf16)), y ∈ pc.1.set :=
  View.cover_of_tiled [⟨r1_3, p0⟩] S1x512x128.size (by rfl) y

/-- The three parts of the full share the reading windows hold of their one array: its right half, the right half of
    its left half, and what is left. -/
abbrev qA : PosShare TreeShare := (fullShare : PosShare TreeShare).right
abbrev qB : PosShare TreeShare := (fullShare : PosShare TreeShare).left.right
abbrev qC : PosShare TreeShare := (fullShare : PosShare TreeShare).left.left

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => qA
    | ⟨1, _⟩ => qB
    | ⟨2, _⟩ => qC
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## Region 2: the output projection -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Chain.lean ====
/-
  The buffer contents at each of @main's segment boundaries, a fold from the launch memory: a host stretch applies its
  operations; a region leaves each of its arrays at what its write-backs make of it — the inputs as entered, the
  output every flushed block overwritten — and every other buffer as entered. Region 1 reads ONE array through three
  windows and writes another, so its exit contents change that one output buffer only.
  Then the proof data of the three pipelines, each at its region's entry contents.
-/
import proofs.«154701_j71133248356497_2_alg».proof.Proof.KI.Dats

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its output array at what the write-backs leave, everything else as entered. -/
def W4 (c : Dev nD) : Valuation τ sig (Elt F) :=
  Function.update (W3 m ρ c) (Proc.devRef .tc main_v7) ((dat1 (V3 m ρ) c).arrAt 3 cfg1.N)
theorem W4_out (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: what the program returns with. -/
abbrev W7 : Dev nD → Valuation τ sig (Elt F) := fun c => StableHlo.after hostOps3 (W6 m ρ c)

/-! ## The proof data family -/

/-- No pipeline has a prefetched table. -/
abbrev admH : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c

end Cert.KernelIdeal.Hand

end
-- ==== Proof.KI.Shared.lean ====
/-
  Region 1 hands ONE array to the kernel through three reading windows and writes a second array through a fourth.
  The two distinct buffers behind its four windows, each held whole, ARE the pipeline's four arrays: the read array's
  full share is its right half, the right half of its left half, and the rest — one part per reading window, all at the
  same contents — and the written array is held outright. At the region's entry the parts are dealt out; at its exit they
  are collected again, the read array unchanged and the written array at what the write-backs left.
-/
import proofs.«154701_j71133248356497_2_alg».proof.Proof.KI.Chain
import proofs.«154701_j71133248356497_2_alg».proof.Proof.LibSharedFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window: three parts of the read array, the written array whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v6) ↦{qA} G 0) ∗ (((c : Thread nD τ).loc main_v6) ↦{qB} G 1)
          ∗ (((c : Thread nD τ).loc main_v6) ↦{qC} G 2) ∗ (((c : Thread nD τ).loc main_v7) ↦{fullShare} G 3)) := by
  unfold Dat.arrays
  rw [bigSep_W1]
  rw [(arr_whole1 0).set_eq_univ, (arr_whole1 3).set_eq_univ]
  rfl

/-- The distinct buffers behind the four windows: the read array and the written one. -/
theorem arrBufs1_eq (c : Dev nD) (Vf : (b : Ref sig .tc) → Buf (Elt F) ((c : Thread nD τ).loc b)) :
    (Pipeline.arrBufs spec1 c Vf : sProp 𝕄)
      = iprop((((c : Thread nD τ).loc main_v6) ↦{fullShare} Vf main_v6) ∗ (((c : Thread nD τ).loc main_v7) ↦{fullShare} Vf main_v7)) := by
  unfold Pipeline.arrBufs
  rw [show (Finset.univ.image (Pipeline.arrRef spec1)) = ({main_v6, main_v7} : Finset (Ref sig .tc)) from by decide,
    BI.bigSep_insert (by decide), BI.bigSep_singleton]
  rfl

variable (m : (ℓ : Loc nD τ sig) → Buf (Elt F) ℓ) (ρ : Dev nD → PrngReg)

/-- ENTRY: the read array's full share dealt among the three reading windows, the written array handed over whole. -/
theorem split1 (c : Dev nD) :
    (Pipeline.arrBufs spec1 c (fun b => W3 m ρ c (Proc.devRef .tc b)) : sProp 𝕄)
      ⊢ (dat1 (V3 m ρ) c).arrays ((dat1 (V3 m ρ) c).arrAt · 0) := by
  rw [arrBufs1_eq, arrays1_eq]
  have h1 : ((((c : Thread nD τ).loc main_v6) ↦{(fullShare : PosShare TreeShare)} W3 m ρ c (Proc.devRef .tc main_v6)) : sProp 𝕄)
      ⊣⊢ iprop((((c : Thread nD τ).loc main_v6) ↦{(fullShare : PosShare TreeShare).left} W3 m ρ c (Proc.devRef .tc main_v6))
          ∗ (((c : Thread nD τ).loc main_v6) ↦{(fullShare : PosShare TreeShare).right} W3 m ρ c (Proc.devRef .tc main_v6))) :=
    pointsTo_share (PosShare.mem_left_op_right _)
  have h2 : ((((c : Thread nD τ).loc main_v6) ↦{(fullShare : PosShare TreeShare).left} W3 m ρ c (Proc.devRef .tc main_v6)) : sProp 𝕄)
      ⊣⊢ iprop((((c : Thread nD τ).loc main_v6) ↦{(fullShare : PosShare TreeShare).left.left} W3 m ρ c (Proc.devRef .tc main_v6))
          ∗ (((c : Thread nD τ).loc main_v6) ↦{(fullShare : PosShare TreeShare).left.right} W3 m ρ c (Proc.devRef .tc main_v6))) :=
    pointsTo_share (PosShare.mem_left_op_right _)
  have e1 := h1.1
  have e2 := h2.1
  show _ ⊢ iprop((((c : Thread nD τ).loc main_v6) ↦{qA} W3 m ρ c (Proc.devRef .tc main_v6))
      ∗ (((c : Thread nD τ).loc main_v6) ↦{qB} W3 m ρ c (Proc.devRef .tc main_v6))
      ∗ (((c : Thread nD τ).loc main_v6) ↦{qC} W3 m ρ c (Proc.devRef .tc main_v6))
      ∗ (((c : Thread nD τ).loc main_v7) ↦{fullShare} W3 m ρ c (Proc.devRef .tc main_v7)))
  iintro ⟨H6, H7⟩
  ihave H := e1 $$ H6
  icases H with ⟨HL, HA⟩
  ihave H' := e2 $$ HL
  icases H' with ⟨HC, HB⟩
  isplitl [HA]; · iexact HA
  isplitl [HB]; · iexact HB
  isplitl [HC]; · iexact HC
  iexact H7

/-- Off the written array the exit contents are the entry contents. -/
theorem rest1 (c : Dev nD) :
    (Pipeline.unscopedRest (Ix := Unit) (Name := ℕ) (U := UR sig nD τ) (Lvl := ℕ) spec1 c (V3 m ρ c) : sProp 𝕄)
      = Pipeline.unscopedRest spec1 c (fun b => W4 m ρ c (Proc.devRef .tc b)) := by
  unfold Pipeline.unscopedRest
  exact bigSep_congr fun b hb => by
    beta_reduce
    rw [W4_of_ne m ρ c b fun e => (Finset.mem_sdiff.mp hb).2 (Finset.mem_image.mpr ⟨3, Finset.mem_univ _, e ▸ rfl⟩)]

/-- EXIT: the three parts collected into the read array's full share, unchanged; the written array at what the
    write-backs left. -/
theorem join1 (c : Dev nD) :
    ((dat1 (V3 m ρ) c).arrays ((dat1 (V3 m ρ) c).arrAt · cfg1.N) : sProp 𝕄)
      ⊢ Pipeline.arrBufs spec1 c (fun b => W4 m ρ c (Proc.devRef .tc b)) := by
  rw [arrBufs1_eq, arrays1_eq, (dat1 (V3 m ρ) c).arrAt_in 0 rfl, (dat1 (V3 m ρ) c).arrAt_in 1 rfl, (dat1 (V3 m ρ) c).arrAt_in 2 rfl,
    W4_out, W4_of_ne m ρ c main_v6 (by decide)]
  have h1 : ((((c : Thread nD τ).loc main_v6) ↦{(fullShare : PosShare TreeShare)} W3 m ρ c (Proc.devRef .tc main_v6)) : sProp 𝕄)
      ⊣⊢ iprop((((c : Thread nD τ).loc main_v6) ↦{(fullShare : PosShare TreeShare).left} W3 m ρ c (Proc.devRef .tc main_v6))
          ∗ (((c : Thread nD τ).loc main_v6) ↦{(fullShare : PosShare TreeShare).right} W3 m ρ c (Proc.devRef .tc main_v6))) :=
    pointsTo_share (PosShare.mem_left_op_right _)
  have h2 : ((((c : Thread nD τ).loc main_v6) ↦{(fullShare : PosShare TreeShare).left} W3 m ρ c (Proc.devRef .tc main_v6)) : sProp 𝕄)
      ⊣⊢ iprop((((c : Thread nD τ).loc main_v6) ↦{(fullShare : PosShare TreeShare).left.left} W3 m ρ c (Proc.devRef .tc main_v6))
          ∗ (((c : Thread nD τ).loc main_v6) ↦{(fullShare : PosShare TreeShare).left.right} W3 m ρ c (Proc.devRef .tc main_v6))) :=
    pointsTo_share (PosShare.mem_left_op_right _)
  have e1 := h1.2
  have e2 := h2.2
  show iprop((((c : Thread nD τ).loc main_v6) ↦{qA} W3 m ρ c (Proc.devRef .tc main_v6))
      ∗ (((c : Thread nD τ).loc main_v6) ↦{qB} W3 m ρ c (Proc.devRef .tc main_v6))
      ∗ (((c : Thread nD τ).loc main_v6) ↦{qC} W3 m ρ c (Proc.devRef .tc main_v6))
      ∗ (((c : Thread nD τ).loc main_v7) ↦{fullShare} (dat1 (V3 m ρ) c).arrAt 3 cfg1.N)) ⊢ _
  iintro ⟨HA, HB, HC, H7⟩
  ihave HL := e2 $$ [HC HB]
  · isplitl [HC]; · iexact HC
    iexact HB
  ihave H6 := e1 $$ [HL HA]
  · isplitl [HL]; · iexact HL
    iexact HA
  isplitl [H6]; · iexact H6
  iexact H7

end Cert.KernelIdeal.Hand

end
-- ==== Proof.KI.Bodies.lean ====
/- The three kernel bodies as separation-logic triples over whole staging buffers, at any float instance.
   Each body loads its three input buffers whole, computes one value from them and stores it over the whole output
   buffer; so from the inputs at read contents `x0 x1 x2` and the output at anything it ends with the inputs unchanged
   and the output at `outK_3 x0 x1 x2`, the store's value laid over the buffer. -/
import proofs.«154701_j71133248356497_2_alg».proof.Proof.Gen.KernelIdeal.Skeleton
import proofs.«154701_j71133248356497_2_alg».proof.Proof.Gen.KernelIdeal.Points
import proofs.«154701_j71133248356497_2_alg».proof.Proof.KI.Dats
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The matmul-plus-bias body of region 0 on whole staging memrefs: with the three inputs at read contents
    `x0 x1 x2` and the output buffer at anything, it runs to the continuation holding the inputs as they were and
    the output at `out0_3 x0 x1 x2` — the one store's payload (the product of the first two plus the broadcast third)
    laid over the whole buffer. -/
theorem sound_kernel0 (c : Dev nD) (E : Set ℕ) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) (i : grid0.Coords) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

set_option maxHeartbeats 1000000 in
/-- The attention body of region 1 on whole staging memrefs: with the query, key and value blocks at read contents
    `x0 x1 x2` and the output buffer at anything, it runs (through the function `k1_part1` it calls, which only loads) to the
    continuation holding the inputs as they were and the output at `out1_3 x0 x1 x2` — the one store's payload (the two
    heads' softmax-weighted values side by side) laid over the whole buffer. -/
theorem sound_kernel1 (c : Dev nD) (E : Set ℕ) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x128 .bf16) (harg6 : arg6.IsWhole)
    (x0 : Vec F S1x512x128 .f32) (x1 : Vec F S1x2048x128 .f32) (x2 : Vec F S1x2048x128 .f32) (K : PUnit → sProp 𝕄) (i : grid1.Coords) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- The matmul-plus-bias body of region 2 on whole staging memrefs: with the three inputs at read contents
    `x0 x1 x2` and the output buffer at anything, it runs to the continuation holding the inputs as they were and
    the output at `out2_3 x0 x1 x2` — the one store's payload (the product of the first two plus the broadcast third)
    laid over the whole buffer. -/
theorem sound_kernel2 (c : Dev nD) (E : Set ℕ) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .bf16) (x2 : Vec F S1x1024 .f32) (K : PUnit → sProp 𝕄) (i : grid2.Coords) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__matmul_bias_kernel i arg2 harg2 arg3 harg3 arg4 harg4 arg5 harg5) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Hand

end
-- ==== Proof.KI.Oblig.lean ====
/- Per region, at the entry contents `V`: each input window's staging buffer holds its block at every grid point
   (whether the point fetches it or not), and from that the body's triple gives the pipeline's body obligation —
   the body, handed the invariant and the four current staging buffers, returns them with the inputs unchanged
   and the output at the body's result on the three input blocks. At any float instance. -/
import proofs.«154701_j71133248356497_2_alg».proof.Proof.Gen.KernelIdeal.Skeleton
import proofs.«154701_j71133248356497_2_alg».proof.Proof.Gen.KernelIdeal.Points
import proofs.«154701_j71133248356497_2_alg».proof.Proof.KI.Bodies
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the fused projection -/

/-- Input window 0's current staging buffer holds its block at every point, fetched there or not: the body leaves the
    block in place, and at a point that does not fetch it the block index has not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current staging buffer holds its block at every point, fetched there or not: the body leaves the
    block in place, and at a point that does not fetch it the block index has not moved since the last fetch. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current staging buffer holds its block at every point, fetched there or not: the body leaves the
    block in place, and at a point that does not fetch it the block index has not moved since the last fetch. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- What the body is handed at point `t`: the invariant, what the core owes, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the three input buffers hold their blocks (`before0_w`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 0, at every point. -/
theorem body_obligation0 (c : Dev nD) : BodyObligation (dat0 (F := F) V c) (defs₀ (F := F)) Variants.none () Set.univ := fun t => by
  rw [bigSep_W0, bigSep_W0]
  exact sound_body0 V c t

/-! ## Region 1: attention for a pair of heads -/

/-- Input window 0's current staging buffer holds its block at every point, fetched there or not: the body leaves the
    block in place, and at a point that does not fetch it the block index has not moved since the last fetch. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Input window 1's current staging buffer holds its block at every point, fetched there or not: the body leaves the
    block in place, and at a point that does not fetch it the block index has not moved since the last fetch. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- Input window 2's current staging buffer holds its block at every point, fetched there or not: the body leaves the
    block in place, and at a point that does not fetch it the block index has not moved since the last fetch. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is handed at point `t`: the invariant, what the core owes, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: the three input buffers hold their blocks (`before1_w`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) (iblk1 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 1, at every point. -/
theorem body_obligation1 (c : Dev nD) : BodyObligation (dat1 (F := F) V c) (defs₀ (F := F)) Variants.none () Set.univ := fun t => by
  rw [bigSep_W1, bigSep_W1]
  exact sound_body1 V c t

/-! ## Region 2: the output projection -/

/-- Input window 0's current staging buffer holds its block at every point, fetched there or not: the body leaves the
    block in place, and at a point that does not fetch it the block index has not moved since the last fetch. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- Input window 1's current staging buffer holds its block at every point, fetched there or not: the body leaves the
    block in place, and at a point that does not fetch it the block index has not moved since the last fetch. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- Input window 2's current staging buffer holds its block at every point, fetched there or not: the body leaves the
    block in place, and at a point that does not fetch it the block index has not moved since the last fetch. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- What the body is handed at point `t`: the invariant, what the core owes, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the three input buffers hold their blocks (`before2_w`), so `sound_kernel2` applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program, at any float instance: @main is seven segments — four stretches of host operations and
  the three kernel regions between them — each entered from the buffer contents the one before it left. Every weakly
  fair execution terminates, nothing faulting, with every unscoped buffer of each core at the last boundary's contents:
  the arguments as launched (no segment writes one) and the result at the fold of the three regions' write-backs.
-/
import proofs.«154701_j71133248356497_2_alg».proof.Proof.KI.Chain
import proofs.«154701_j71133248356497_2_alg».proof.Proof.KI.Shared
import proofs.«154701_j71133248356497_2_alg».proof.Proof.KI.Oblig
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Region 0 over the thread state: entered with every unscoped buffer at the boundary contents before it, left with
    them at the contents after it. Its arrays are split out of the unscoped buffers and put back at the exit
    contents; the generator register goes into the class invariant and comes out; nothing is owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: as the others, but its three reading windows share one array, whose full share is dealt among them at
    the entry and collected at the exit. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none,
      Cert.SharedFrame.held_ucRefs_split (Ix := Unit) (Name := ℕ) (U := UR sig nD τ) (Lvl := ℕ) spec1 winFacts₀1.arr_unscoped c (W3 m ρ c)]
    iintro ⟨⟨⟨Hb, Hrest⟩, Hp, HO⟩, -, -⟩
    ihave Ha := (split1 m ρ c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [Cert.SharedFrame.held_ucRefs_split (Ix := Unit) (Name := ℕ) (U := UR sig nD τ) (Lvl := ℕ) spec1 winFacts₀1.arr_unscoped c (W4 m ρ c),
      ← rest1 m ρ c]
    iintro ⟨Ha, HO, HY, Hrest⟩
    imodintro
    isplitl [Ha Hrest]
    · isplitl [Ha]; · iapply (join1 m ρ c); iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it, left with
    them at the contents after it. Its arrays are split out of the unscoped buffers and put back at the exit
    contents; the generator register goes into the class invariant and comes out; nothing is owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI.Args.lean ====
/-
  The argument arrays end as launched: no host operation writes one and no region has one among its arrays, so the
  fold of buffer contents through @main's seven segments, read at an argument's buffer, walks back to the launch memory.
-/
import proofs.«154701_j71133248356497_2_alg».proof.Proof.KI.Chain
import proofs.«154701_j71133248356497_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.KernelIdeal.Hand

end
-- ==== Proof.Frames.lean ====
/-
  The two kernel programs' frames. Each program's run ends with every unscoped buffer of each core at the fold of the
  seven segments' effects on the launch memory; no segment writes an argument array, so each argument's buffer, read
  through that fold, holds what it was launched with.
-/
import proofs.«154701_j71133248356497_2_alg».proof.Defs
import proofs.«154701_j71133248356497_2_alg».proof.Proof.Gen.Kernel
import proofs.«154701_j71133248356497_2_alg».proof.Proof.Gen.KernelIdeal
import proofs.«154701_j71133248356497_2_alg».proof.Proof.Gen.Pre_finite_inputs
import proofs.«154701_j71133248356497_2_alg».proof.Proof.K.Run
import proofs.«154701_j71133248356497_2_alg».proof.Proof.K.Args
import proofs.«154701_j71133248356497_2_alg».proof.Proof.KI.Run
import proofs.«154701_j71133248356497_2_alg».proof.Proof.KI.Args

noncomputable section

namespace Cert.Proof.Frames

open Idealize.ShloMosaic Idealize.ShloMosaic.TcCoe Idealize.SL.Sem

/-- The kernel as printed runs to the end, faults nowhere and leaves its arguments as launched. -/
theorem frame_k : Cert.frame_Kernel (hKernel := Cert.Kernel.Gen.facts) (hPre_finite_inputs := Cert.Pre_finite_inputs.Gen.facts) :=
  fun m ρ _ =>
  (θ_run Cert.Kernel.defs _ _).mono (fun r h c =>
    ⟨(h c _ (Cert.Kernel.Hand.mem_uc Cert.Kernel.main_arg0 (by decide))).trans (Cert.Kernel.Hand.W7_main_arg0 m ρ c),
     (h c _ (Cert.Kernel.Hand.mem_uc Cert.Kernel.main_arg1 (by decide))).trans (Cert.Kernel.Hand.W7_main_arg1 m ρ c),
     (h c _ (Cert.Kernel.Hand.mem_uc Cert.Kernel.main_arg2 (by decide))).trans (Cert.Kernel.Hand.W7_main_arg2 m ρ c),
     (h c _ (Cert.Kernel.Hand.mem_uc Cert.Kernel.main_arg3 (by decide))).trans (Cert.Kernel.Hand.W7_main_arg3 m ρ c),
     (h c _ (Cert.Kernel.Hand.mem_uc Cert.Kernel.main_arg4 (by decide))).trans (Cert.Kernel.Hand.W7_main_arg4 m ρ c)⟩)
    (Cert.Kernel.Hand.run_all m ρ)

/-- The same program read on the extended reals. -/
theorem frame_ki : Cert.frame_KernelIdeal (hKernelIdeal := Cert.KernelIdeal.Gen.facts) (hPre_finite_inputs := Cert.Pre_finite_inputs.Gen.facts) :=
  fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c),
     (h c _ (Cert.KernelIdeal.Hand.mem_uc Cert.KernelIdeal.main_arg4 (by decide))).trans (Cert.KernelIdeal.Hand.W7_main_arg4 m ρ c)⟩)
    (Cert.KernelIdeal.Hand.run_all m ρ)

end Cert.Proof.Frames

end
-- ==== Proof.KI.MatmulAt.lean ====
/-
  The three matrix products of the kernel bodies read at an index, at the ideal values: into the zero
  accumulator a product of an [M, K] by a [K, N] vector is, at (r, n), the sum over k of the left factor
  at (r, k) times the right factor at (k, n).  The contraction's one axis is re-indexed by its coordinate.
-/
import proofs.«154701_j71133248356497_2_alg».proof.Proof.Gen.KernelIdeal.Skeleton
import Idealize.ShloMosaic.Lib.ValueIdx
import Idealize.ShloMosaic.PureOps.Ideal.Laws

open scoped BigOperators

noncomputable section

namespace Cert.KernelIdeal.HandValue

open Cert.KernelIdeal Cert.KernelIdeal.Gen Idealize.ShloMosaic Idealize.ShloMosaic.ValueIdx

/-- The projection product [512, 1024] · [1024, 1024] at (r, n). -/
theorem mm_proj_apply {φ₁ φ₂ : FTy} (a : FVec Ideal S512x1024 φ₁) (b : FVec Ideal S1024x1024 φ₂) (r : Fin 512) (n : Fin 1024) :
    matmul dot_S512x1024_S1024x1024_S512x1024_1_0_0_1_n_n none a b (constant S512x1024 .f32 0x00000000#32) (ix2 r n)
      = ∑ k : Fin 1024, a (ix2 r k) * b (ix2 k n) := by
  refine (Ideal.matmul_constant_zero_apply dot_S512x1024_S1024x1024_S512x1024_1_0_0_1_n_n none a b (ix2 r n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have l0 : ∀ q : dot_S512x1024_S1024x1024_S512x1024_1_0_0_1_n_n.contr.Idx, (dot_S512x1024_S1024x1024_S512x1024_1_0_0_1_n_n.lhsIdx (ix2 r n) q 0).val = r.val := fun q => by
    unfold DotDims.lhsIdx
    rw [dif_neg (show ¬(0 : Fin S512x1024.rank) ∈ dot_S512x1024_S1024x1024_S512x1024_1_0_0_1_n_n.lhsBatch by decide),
      dif_pos (show (0 : Fin S512x1024.rank) ∈ dot_S512x1024_S1024x1024_S512x1024_1_0_0_1_n_n.lhsNonContracting by decide)]
    rfl
  have r1 : ∀ q : dot_S512x1024_S1024x1024_S512x1024_1_0_0_1_n_n.contr.Idx, (dot_S512x1024_S1024x1024_S512x1024_1_0_0_1_n_n.rhsIdx (ix2 r n) q 1).val = n.val := fun q => by
    unfold DotDims.rhsIdx
    rw [dif_neg (show ¬(1 : Fin S1024x1024.rank) ∈ dot_S512x1024_S1024x1024_S512x1024_1_0_0_1_n_n.rhsBatch by decide),
      dif_pos (show (1 : Fin S1024x1024.rank) ∈ dot_S512x1024_S1024x1024_S512x1024_1_0_0_1_n_n.rhsNonContracting by decide)]
    rfl
  have el : dot_S512x1024_S1024x1024_S512x1024_1_0_0_1_n_n.lhsIdx (ix2 r n) ((contrEquiv1 dot_S512x1024_S1024x1024_S512x1024_1_0_0_1_n_n 1024 rfl rfl).symm k) = ix2 r k :=
    funext fun x => Fin.ext (by
      match x with
      | ⟨0, _⟩ => exact l0 _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r n) ((contrEquiv1 dot_S512x1024_S1024x1024_S512x1024_1_0_0_1_n_n 1024 rfl rfl).symm k) = ix2 k n :=
    funext fun x => Fin.ext (by
      match x with
      | ⟨0, _⟩ => exact (dot_S512x1024_S1024x1024_S512x1024_1_0_0_1_n_n.rhsIdx_val_of_single rfl _ _).trans hk
      | ⟨1, _⟩ => exact r1 _)
  rw [el, er]

/-- The score product [512, 64] · [64, 2048] at (r, k): the sum over the head's 64 lanes. -/
theorem mm_scores_apply {φ₁ φ₂ : FTy} (a : FVec Ideal S512x64 φ₁) (b : FVec Ideal S64x2048 φ₂) (r : Fin 512) (n : Fin 2048) :
    matmul dot_S512x64_S64x2048_S512x2048_1_0_0_1_n_n none a b (constant S512x2048 .f32 0x00000000#32) (ix2 r n)
      = ∑ k : Fin 64, a (ix2 r k) * b (ix2 k n) := by
  refine (Ideal.matmul_constant_zero_apply dot_S512x64_S64x2048_S512x2048_1_0_0_1_n_n none a b (ix2 r n)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have l0 : ∀ q : dot_S512x64_S64x2048_S512x2048_1_0_0_1_n_n.contr.Idx, (dot_S512x64_S64x2048_S512x2048_1_0_0_1_n_n.lhsIdx (ix2 r n) q 0).val = r.val := fun q => by
    unfold DotDims.lhsIdx
    rw [dif_neg (show ¬(0 : Fin S512x64.rank) ∈ dot_S512x64_S64x2048_S512x2048_1_0_0_1_n_n.lhsBatch by decide),
      dif_pos (show (0 : Fin S512x64.rank) ∈ dot_S512x64_S64x2048_S512x2048_1_0_0_1_n_n.lhsNonContracting by decide)]
    rfl
  have r1 : ∀ q : dot_S512x64_S64x2048_S512x2048_1_0_0_1_n_n.contr.Idx, (dot_S512x64_S64x2048_S512x2048_1_0_0_1_n_n.rhsIdx (ix2 r n) q 1).val = n.val := fun q => by
    unfold DotDims.rhsIdx
    rw [dif_neg (show ¬(1 : Fin S64x2048.rank) ∈ dot_S512x64_S64x2048_S512x2048_1_0_0_1_n_n.rhsBatch by decide),
      dif_pos (show (1 : Fin S64x2048.rank) ∈ dot_S512x64_S64x2048_S512x2048_1_0_0_1_n_n.rhsNonContracting by decide)]
    rfl
  have el : dot_S512x64_S64x2048_S512x2048_1_0_0_1_n_n.lhsIdx (ix2 r n) ((contrEquiv1 dot_S512x64_S64x2048_S512x2048_1_0_0_1_n_n 64 rfl rfl).symm k) = ix2 r k :=
    funext fun x => Fin.ext (by
      match x with
      | ⟨0, _⟩ => exact l0 _
      | ⟨1, _⟩ => exact (dot_S512x64_S64x2048_S512x2048_1_0_0_1_n_n.lhsIdx_val_of_single rfl _ _).trans hk)
  have er : dot_S512x64_S64x2048_S512x2048_1_0_0_1_n_n.rhsIdx (ix2 r n) ((contrEquiv1 dot_S512x64_S64x2048_S512x2048_1_0_0_1_n_n 64 rfl rfl).symm k) = ix2 k n :=
    funext fun x => Fin.ext (by
      match x with
      | ⟨0, _⟩ => exact (dot_S512x64_S64x2048_S512x2048_1_0_0_1_n_n.rhsIdx_val_of_single rfl _ _).trans hk
      | ⟨1, _⟩ => exact r1 _)
  rw [el, er]

/-- The mixing product [512, 2048] · [2048, 64] at (r, d): the sum over the 2048 keys. -/
theorem mm_mix_apply {φ₁ φ₂ : FTy} (a : FVec Ideal S512x2048 φ₁) (b : FVec Ideal S2048x64 φ₂) (r : Fin 512) (n : Fin 64) :
    matmul dot_S512x2048_S2048x64_S512x64_1_0_0_1_n_n none a b (constant S512x64 .f32 0x00000000#32) (ix2 r n)
      = ∑ k : Fin 2048, a (ix2 r k) * b (ix2 k n) := by
  refine (Ideal.matmul_constant_zero_apply dot_S512x2048_S2048x64_S512x64_1_0_0_1_n_n none a b (ix2 r n)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have l0 : ∀ q : dot_S512x2048_S2048x64_S512x64_1_0_0_1_n_n.contr.Idx, (dot_S512x2048_S2048x64_S512x64_1_0_0_1_n_n.lhsIdx (ix2 r n) q 0).val = r.val := fun q => by
    unfold DotDims.lhsIdx
    rw [dif_neg (show ¬(0 : Fin S512x2048.rank) ∈ dot_S512x2048_S2048x64_S512x64_1_0_0_1_n_n.lhsBatch by decide),
      dif_pos (show (0 : Fin S512x2048.rank) ∈ dot_S512x2048_S2048x64_S512x64_1_0_0_1_n_n.lhsNonContracting by decide)]
    rfl
  have r1 : ∀ q : dot_S512x2048_S2048x64_S512x64_1_0_0_1_n_n.contr.Idx, (dot_S512x2048_S2048x64_S512x64_1_0_0_1_n_n.rhsIdx (ix2 r n) q 1).val = n.val := fun q => by
    unfold DotDims.rhsIdx
    rw [dif_neg (show ¬(1 : Fin S2048x64.rank) ∈ dot_S512x2048_S2048x64_S512x64_1_0_0_1_n_n.rhsBatch by decide),
      dif_pos (show (1 : Fin S2048x64.rank) ∈ dot_S512x2048_S2048x64_S512x64_1_0_0_1_n_n.rhsNonContracting by decide)]
    rfl
  have el : dot_S512x2048_S2048x64_S512x64_1_0_0_1_n_n.lhsIdx (ix2 r n) ((contrEquiv1 dot_S512x2048_S2048x64_S512x64_1_0_0_1_n_n 2048 rfl rfl).symm k) = ix2 r k :=
    funext fun x => Fin.ext (by
      match x with
      | ⟨0, _⟩ => exact l0 _
      | ⟨1, _⟩ => exact (dot_S512x2048_S2048x64_S512x64_1_0_0_1_n_n.lhsIdx_val_of_single rfl _ _).trans hk)
  have er : dot_S512x2048_S2048x64_S512x64_1_0_0_1_n_n.rhsIdx (ix2 r n) ((contrEquiv1 dot_S512x2048_S2048x64_S512x64_1_0_0_1_n_n 2048 rfl rfl).symm k) = ix2 k n :=
    funext fun x => Fin.ext (by
      match x with
      | ⟨0, _⟩ => exact (dot_S512x2048_S2048x64_S512x64_1_0_0_1_n_n.rhsIdx_val_of_single rfl _ _).trans hk
      | ⟨1, _⟩ => exact r1 _)
  rw [el, er]

end Cert.KernelIdeal.HandValue

end
-- ==== Proof.KI.PayMM.lean ====
/-
  The two projection bodies read at an index, at the ideal values: the stored block is, at (r, n), the
  sum over k of the left block at (r, k) times the weight block at (k, n), plus the bias row at n.
-/
import proofs.«154701_j71133248356497_2_alg».proof.Proof.KI.MatmulAt
import Idealize.ShloMosaic.Lib.Pipeline.Value

open scoped BigOperators

noncomputable section

namespace Cert.KernelIdeal.HandValue

open Cert.KernelIdeal Cert.KernelIdeal.Gen Idealize.ShloMosaic Idealize.ShloMosaic.ValueIdx

/-- The bias row [1, 1024] broadcast over the 512 rows reads, at (r, n), the row at (0, n). -/
theorem bias_row_apply {α : Type} (x : S1x1024.Idx → α) (h : S1x1024.Broadcasts S512x1024) (r : Fin 512) (n : Fin 1024) :
    broadcastTo S512x1024 x h (ix2 r n) = x (ix2 0 n) :=
  broadcastTo_apply x h (ix2 r n) (ix2 0 n) (fun a => match a with
    | ⟨0, _⟩ => by show 0 = if (1 : Nat) = 1 then 0 else r.val; rw [if_pos rfl]
    | ⟨1, _⟩ => by show n.val = if (1024 : Nat) = 1 then 0 else n.val; rw [if_neg (by decide)])

/-- The first projection's block at (r, n). -/
theorem k0_pay1_apply (x0 : FVec Ideal S512x1024 .bf16) (x1 : FVec Ideal S1024x1024 .bf16) (x2 : FVec Ideal S1x1024 .f32)
    (r : Fin 512) (n : Fin 1024) :
    k0_pay1 (F := Ideal) x0 x1 x2 (ix2 r n) = (∑ k : Fin 1024, x0 (ix2 r k) * x1 (ix2 k n)) + x2 (ix2 0 n) := by
  unfold k0_pay1
  simp only [shapeCast_self]
  refine (addf_apply _ _ (ix2 r n)).trans ?_
  refine congrArg₂ (· + ·) (mm_proj_apply x0 x1 r n) (bias_row_apply x2 _ r n)

/-- The output projection's block at (r, n). -/
theorem k2_pay1_apply (x0 : FVec Ideal S512x1024 .bf16) (x1 : FVec Ideal S1024x1024 .bf16) (x2 : FVec Ideal S1x1024 .f32)
    (r : Fin 512) (n : Fin 1024) :
    k2_pay1 (F := Ideal) x0 x1 x2 (ix2 r n) = (∑ k : Fin 1024, x0 (ix2 r k) * x1 (ix2 k n)) + x2 (ix2 0 n) := by
  unfold k2_pay1
  simp only [shapeCast_self]
  refine (addf_apply _ _ (ix2 r n)).trans ?_
  refine congrArg₂ (· + ·) (mm_proj_apply x0 x1 r n) (bias_row_apply x2 _ r n)

end Cert.KernelIdeal.HandValue

end
-- ==== Proof.KI.ProjSpec.lean ====
/-
  A projection as one function of its three arrays, index by index: a [4096, 1024] array times a [1024, N]
  matrix plus a [1, N] bias row.
-/
import Idealize.ShloMosaic.PureOps.Ideal
import Idealize.ShloMosaic.Lib.ValueIdx
import Mathlib.Algebra.BigOperators.Fin

open scoped BigOperators

noncomputable section

namespace Cert.KernelIdeal.HandValue

open Idealize.ShloMosaic Idealize.ShloMosaic.ValueIdx

/-- Row r of the left array against column n of the matrix, plus the bias at n. -/
def projAt {N : Nat} (X : (⟨2, ![4096, 1024]⟩ : Shape).Idx → EReal) (Wt : (⟨2, ![1024, N]⟩ : Shape).Idx → EReal)
    (B : (⟨2, ![1, N]⟩ : Shape).Idx → EReal) (r : Fin 4096) (n : Fin N) : EReal :=
  (∑ k : Fin 1024, X (ix2 r k) * Wt (ix2 k n)) + B (ix2 (0 : Fin 1) n)

/-- The projected array. -/
def projG {N : Nat} (X : (⟨2, ![4096, 1024]⟩ : Shape).Idx → EReal) (Wt : (⟨2, ![1024, N]⟩ : Shape).Idx → EReal)
    (B : (⟨2, ![1, N]⟩ : Shape).Idx → EReal) : (⟨2, ![4096, N]⟩ : Shape).Idx → EReal :=
  fun i => projAt X Wt B (i 0) (i 1)

theorem projG_ix2 {N : Nat} (X : (⟨2, ![4096, 1024]⟩ : Shape).Idx → EReal) (Wt : (⟨2, ![1024, N]⟩ : Shape).Idx → EReal)
    (B : (⟨2, ![1, N]⟩ : Shape).Idx → EReal) (r : Fin 4096) (n : Fin N) :
    projG X Wt B (ix2 r n) = projAt X Wt B r n := rfl

end Cert.KernelIdeal.HandValue

end
-- ==== Proof.KI.Final0.lean ====
/-
  Region 0 from blocks to the array, at the ideal values: what every grid point writes back is its block of
  ONE whole-array function of the region's three input arrays as it finds them — the [4096, 1024] left array
  times the [1024, 3072] matrix plus the bias row —, the output's blocks tile its array, and so the array
  ends holding that function.
-/
import proofs.«154701_j71133248356497_2_alg».proof.Proof.KI.Chain
import proofs.«154701_j71133248356497_2_alg».proof.Proof.KI.PayMM
import proofs.«154701_j71133248356497_2_alg».proof.Proof.KI.ProjSpec
import Idealize.ShloMosaic.Lib.Pipeline.Value

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: the left block moves with the output's row block, the matrix and bias
    blocks with its column block, and the output's block indices stay in their ranges. -/
theorem index_maps0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

/-- Every block of the output array is some point's. -/
theorem index_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- The left block at a point, element (p, k): row (block row) * 512 + p of the left array, column k. -/
theorem left_block0 (c : Dev nD) (t : Fin cfg0.N) (p : Fin 512) (k : Fin 1024) (R : Fin 4096)
    (hR : R.val = win0_0.index t (0 : Fin 2) * 512 + p.val) (h1 : win0_0.index t (1 : Fin 2) = 0) :
    (iblk0 V c 0 t : S512x1024.Idx → EReal) (ix2 p k) = (V c main_v1 : S4096x1024.Idx → EReal) (ix2 R k) := by
  unfold iblk0
  rw [View.read_apply]
  show V c main_v1 (((cfg0.win 0).blk t).view.emb (ix2 p k)) = V c main_v1 (ix2 R k)
  refine congrArg (V c main_v1) (funext fun a => Fin.ext ?_)
  match a with
  | ⟨0, _⟩ => show win0_0.index t (0 : Fin 2) * 512 + 1 * p.val = R.val; omega
  | ⟨1, _⟩ => show win0_0.index t (1 : Fin 2) * 1024 + 1 * k.val = k.val; omega

/-- The matrix block at a point, element (k, q): row k, column (block column) * 1024 + q of the matrix. -/
theorem matrix_block0 (c : Dev nD) (t : Fin cfg0.N) (k : Fin 1024) (q : Fin 1024) (C : Fin 3072)
    (h0 : win0_1.index t (0 : Fin 2) = 0) (hC : C.val = win0_1.index t (1 : Fin 2) * 1024 + q.val) :
    (iblk0 V c 1 t : S1024x1024.Idx → EReal) (ix2 k q) = (V c main_v2 : S1024x3072.Idx → EReal) (ix2 k C) := by
  unfold iblk0
  rw [View.read_apply]
  show V c main_v2 (((cfg0.win 1).blk t).view.emb (ix2 k q)) = V c main_v2 (ix2 k C)
  refine congrArg (V c main_v2) (funext fun a => Fin.ext ?_)
  match a with
  | ⟨0, _⟩ => show win0_1.index t (0 : Fin 2) * 1024 + 1 * k.val = k.val; omega
  | ⟨1, _⟩ => show win0_1.index t (1 : Fin 2) * 1024 + 1 * q.val = C.val; omega

/-- The bias block at a point, element (0, q): column (block column) * 1024 + q of the bias row. -/
theorem bias_block0 (c : Dev nD) (t : Fin cfg0.N) (q : Fin 1024) (C : Fin 3072)
    (h0 : win0_2.index t (0 : Fin 2) = 0) (hC : C.val = win0_2.index t (1 : Fin 2) * 1024 + q.val) :
    (iblk0 V c 2 t : S1x1024.Idx → EReal) (ix2 (0 : Fin 1) q) = (V c main_v4 : S1x3072.Idx → EReal) (ix2 (0 : Fin 1) C) := by
  unfold iblk0
  rw [View.read_apply]
  show V c main_v4 (((cfg0.win 2).blk t).view.emb (ix2 (0 : Fin 1) q)) = V c main_v4 (ix2 (0 : Fin 1) C)
  refine congrArg (V c main_v4) (funext fun a => Fin.ext ?_)
  match a with
  | ⟨0, _⟩ => show win0_2.index t (0 : Fin 2) * 1 + 1 * 0 = 0; omega
  | ⟨1, _⟩ => show win0_2.index t (1 : Fin 2) * 1024 + 1 * q.val = C.val; omega

/-- The region's result as one function of its three input arrays as it finds them. -/
abbrev result0 (c : Dev nD) : S4096x3072.Idx → EReal :=
  projG (V c main_v1 : S4096x1024.Idx → EReal) (V c main_v2 : S1024x3072.Idx → EReal) (V c main_v4 : S1x3072.Idx → EReal)

/-- WHAT POINT t WRITES BACK is block t of that function. -/
theorem flushed0_eq (c : Dev nD) (t : Fin cfg0.N) :
    (dat0 V c).flushed 3 t = ((cfg0.win 3).blk t).view.read (Elt Ideal) (result0 V c) := by
  show (cfg0.win 3).cut (grid0.coords t) ((dat0 V c).after 3 t) = _
  rw [after0_3]
  unfold out0_3
  rw [View.canon_unit_zero zero_offsets0]
  simp only [View.ld_unit_zero (S := S512x1024) zero_offsets0, View.ld_unit_zero (S := S1024x1024) zero_offsets0,
    View.ld_unit_zero (S := S1x1024) zero_offsets0]
  obtain ⟨e0, e1, e2, e3, e4, e5, b0, b1⟩ := index_maps0 t
  funext j
  obtain ⟨p, q, rfl⟩ : ∃ (p : Fin 512) (q : Fin 1024), j = ix2 p q := ⟨j 0, j 1, eq_ix2 j⟩
  have hp : p.val < 512 := p.isLt
  have hq : q.val < 1024 := q.isLt
  have hR : win0_3.index t (0 : Fin 2) * 512 + p.val < 4096 := by omega
  have hC : win0_3.index t (1 : Fin 2) * 1024 + q.val < 3072 := by omega
  show k0_pay1 (F := Ideal) (iblk0 V c 0 t) (iblk0 V c 1 t) (iblk0 V c 2 t) (ix2 p q)
      = result0 V c (((cfg0.win 3).blk t).view.emb (ix2 p q))
  have hemb : ((cfg0.win 3).blk t).view.emb (ix2 p q)
      = ix2 (⟨win0_3.index t (0 : Fin 2) * 512 + p.val, hR⟩ : Fin 4096) (⟨win0_3.index t (1 : Fin 2) * 1024 + q.val, hC⟩ : Fin 3072) := by
    funext a
    apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  rw [hemb]
  refine (k0_pay1_apply _ _ _ p q).trans ?_
  show _ = projAt _ _ _ _ _
  unfold projAt
  refine congrArg₂ (· + ·) (Finset.sum_congr rfl fun k _ => congrArg₂ (· * ·) ?_ ?_) ?_
  · exact left_block0 V c t p k _ (by show _ = win0_0.index t (0 : Fin 2) * 512 + p.val; rw [e0]) e1
  · exact matrix_block0 V c t k q _ e2 (by show _ = win0_1.index t (1 : Fin 2) * 1024 + q.val; rw [e3])
  · exact bias_block0 V c t q _ e4 (by show _ = win0_2.index t (1 : Fin 2) * 1024 + q.val; rw [e5])

/-- An index of the output array is in point t's block iff each coordinate is in the block's range on its axis. -/
theorem mem_block0 (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5).slice (win0_3.rect t)).set ↔ _
  rw [View.set_slice_whole, Rect.mem_set_unit]
  exact Iff.rfl

/-- The output's blocks tile its array: index (r, n) lies in the block of row block r / 512 and column block n / 1024. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := index_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the region: the projection of its input arrays as the region found them. -/
theorem final0 (c : Dev nD) : (dat0 V c).arrAt 3 cfg0.N = result0 V c :=
  (dat0 V c).arrAt_eq_of_cover 3 (result0 V c) (fun t _ => flushed0_eq V c t) cover0

end Cert.KernelIdeal.HandValue

end
-- ==== Proof.KI.Final2.lean ====
/-
  Region 2 from blocks to the array, at the ideal values: what every grid point writes back is its block of
  ONE whole-array function of the region's three input arrays as it finds them — the [4096, 1024] left array
  times the [1024, 1024] matrix plus the bias row —, the output's blocks tile its array, and so the array
  ends holding that function.
-/
import proofs.«154701_j71133248356497_2_alg».proof.Proof.KI.Chain
import proofs.«154701_j71133248356497_2_alg».proof.Proof.KI.PayMM
import proofs.«154701_j71133248356497_2_alg».proof.Proof.KI.ProjSpec
import Idealize.ShloMosaic.Lib.Pipeline.Value

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The printed index maps over the grid: the left block moves with the output's row block, the matrix and bias
    blocks with its column block, and the output's block indices stay in their ranges. -/
theorem index_maps2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 7 ∧ win2_3.index t (1 : Fin 2) ≤ 0 :=
  (by decide +kernel : ∀ t : Fin grid2.N, _)

/-- Every block of the output array is some point's. -/
theorem index_onto2 : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- The left block at a point, element (p, k): row (block row) * 512 + p of the left array, column k. -/
theorem left_block2 (c : Dev nD) (t : Fin cfg2.N) (p : Fin 512) (k : Fin 1024) (R : Fin 4096)
    (hR : R.val = win2_0.index t (0 : Fin 2) * 512 + p.val) (h1 : win2_0.index t (1 : Fin 2) = 0) :
    (iblk2 V c 0 t : S512x1024.Idx → EReal) (ix2 p k) = (V c main_v8 : S4096x1024.Idx → EReal) (ix2 R k) := by
  unfold iblk2
  rw [View.read_apply]
  show V c main_v8 (((cfg2.win 0).blk t).view.emb (ix2 p k)) = V c main_v8 (ix2 R k)
  refine congrArg (V c main_v8) (funext fun a => Fin.ext ?_)
  match a with
  | ⟨0, _⟩ => show win2_0.index t (0 : Fin 2) * 512 + 1 * p.val = R.val; omega
  | ⟨1, _⟩ => show win2_0.index t (1 : Fin 2) * 1024 + 1 * k.val = k.val; omega

/-- The matrix block at a point, element (k, q): row k, column (block column) * 1024 + q of the matrix. -/
theorem matrix_block2 (c : Dev nD) (t : Fin cfg2.N) (k : Fin 1024) (q : Fin 1024) (C : Fin 1024)
    (h0 : win2_1.index t (0 : Fin 2) = 0) (hC : C.val = win2_1.index t (1 : Fin 2) * 1024 + q.val) :
    (iblk2 V c 1 t : S1024x1024.Idx → EReal) (ix2 k q) = (V c main_v3 : S1024x1024.Idx → EReal) (ix2 k C) := by
  unfold iblk2
  rw [View.read_apply]
  show V c main_v3 (((cfg2.win 1).blk t).view.emb (ix2 k q)) = V c main_v3 (ix2 k C)
  refine congrArg (V c main_v3) (funext fun a => Fin.ext ?_)
  match a with
  | ⟨0, _⟩ => show win2_1.index t (0 : Fin 2) * 1024 + 1 * k.val = k.val; omega
  | ⟨1, _⟩ => show win2_1.index t (1 : Fin 2) * 1024 + 1 * q.val = C.val; omega

/-- The bias block at a point, element (0, q): column (block column) * 1024 + q of the bias row. -/
theorem bias_block2 (c : Dev nD) (t : Fin cfg2.N) (q : Fin 1024) (C : Fin 1024)
    (h0 : win2_2.index t (0 : Fin 2) = 0) (hC : C.val = win2_2.index t (1 : Fin 2) * 1024 + q.val) :
    (iblk2 V c 2 t : S1x1024.Idx → EReal) (ix2 (0 : Fin 1) q) = (V c main_v9 : S1x1024.Idx → EReal) (ix2 (0 : Fin 1) C) := by
  unfold iblk2
  rw [View.read_apply]
  show V c main_v9 (((cfg2.win 2).blk t).view.emb (ix2 (0 : Fin 1) q)) = V c main_v9 (ix2 (0 : Fin 1) C)
  refine congrArg (V c main_v9) (funext fun a => Fin.ext ?_)
  match a with
  | ⟨0, _⟩ => show win2_2.index t (0 : Fin 2) * 1 + 1 * 0 = 0; omega
  | ⟨1, _⟩ => show win2_2.index t (1 : Fin 2) * 1024 + 1 * q.val = C.val; omega

/-- The region's result as one function of its three input arrays as it finds them. -/
abbrev result2 (c : Dev nD) : S4096x1024.Idx → EReal :=
  projG (V c main_v8 : S4096x1024.Idx → EReal) (V c main_v3 : S1024x1024.Idx → EReal) (V c main_v9 : S1x1024.Idx → EReal)

/-- WHAT POINT t WRITES BACK is block t of that function. -/
theorem flushed2_eq (c : Dev nD) (t : Fin cfg2.N) :
    (dat2 V c).flushed 3 t = ((cfg2.win 3).blk t).view.read (Elt Ideal) (result2 V c) := by
  show (cfg2.win 3).cut (grid2.coords t) ((dat2 V c).after 3 t) = _
  rw [after2_3]
  unfold out2_3
  rw [View.canon_unit_zero zero_offsets2]
  simp only [View.ld_unit_zero (S := S512x1024) zero_offsets2, View.ld_unit_zero (S := S1024x1024) zero_offsets2,
    View.ld_unit_zero (S := S1x1024) zero_offsets2]
  obtain ⟨e0, e1, e2, e3, e4, e5, b0, b1⟩ := index_maps2 t
  funext j
  obtain ⟨p, q, rfl⟩ : ∃ (p : Fin 512) (q : Fin 1024), j = ix2 p q := ⟨j 0, j 1, eq_ix2 j⟩
  have hp : p.val < 512 := p.isLt
  have hq : q.val < 1024 := q.isLt
  have hR : win2_3.index t (0 : Fin 2) * 512 + p.val < 4096 := by omega
  have hC : win2_3.index t (1 : Fin 2) * 1024 + q.val < 1024 := by omega
  show k2_pay1 (F := Ideal) (iblk2 V c 0 t) (iblk2 V c 1 t) (iblk2 V c 2 t) (ix2 p q)
      = result2 V c (((cfg2.win 3).blk t).view.emb (ix2 p q))
  have hemb : ((cfg2.win 3).blk t).view.emb (ix2 p q)
      = ix2 (⟨win2_3.index t (0 : Fin 2) * 512 + p.val, hR⟩ : Fin 4096) (⟨win2_3.index t (1 : Fin 2) * 1024 + q.val, hC⟩ : Fin 1024) := by
    funext a
    apply Fin.ext
    match a with
    | ⟨0, _⟩ => show win2_3.index t (0 : Fin 2) * 512 + 1 * p.val = win2_3.index t (0 : Fin 2) * 512 + p.val; omega
    | ⟨1, _⟩ => show win2_3.index t (1 : Fin 2) * 1024 + 1 * q.val = win2_3.index t (1 : Fin 2) * 1024 + q.val; omega
  rw [hemb]
  refine (k2_pay1_apply _ _ _ p q).trans ?_
  show _ = projAt _ _ _ _ _
  unfold projAt
  refine congrArg₂ (· + ·) (Finset.sum_congr rfl fun k _ => congrArg₂ (· * ·) ?_ ?_) ?_
  · exact left_block2 V c t p k _ (by show _ = win2_0.index t (0 : Fin 2) * 512 + p.val; rw [e0]) e1
  · exact matrix_block2 V c t k q _ e2 (by show _ = win2_1.index t (1 : Fin 2) * 1024 + q.val; rw [e3])
  · exact bias_block2 V c t q _ e4 (by show _ = win2_2.index t (1 : Fin 2) * 1024 + q.val; rw [e5])

/-- An index of the output array is in point t's block iff each coordinate is in the block's range on its axis. -/
theorem mem_block2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v10).slice (win2_3.rect t)).set ↔ _
  rw [View.set_slice_whole, Rect.mem_set_unit]
  exact Iff.rfl

/-- The output's blocks tile its array: index (r, n) lies in the block of row block r / 512 and column block n / 1024. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := index_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY after the region: the projection of its input arrays as the region found them. -/
theorem final2 (c : Dev nD) : (dat2 V c).arrAt 3 cfg2.N = result2 V c :=
  (dat2 V c).arrAt_eq_of_cover 3 (result2 V c) (fun t _ => flushed2_eq V c t) cover2

end Cert.KernelIdeal.HandValue

end
-- ==== Proof.KI.RowOps.lean ====
/-
  The row softmax of the attention body read at an index, at the ideal values.  For a [512, 2048] score
  vector the body takes each row's maximum (the fold of max from the word of -inf, then max with that word
  again), subtracts it, exponentiates, sums the row and divides.  At (r, k) this is
  exp (s r k - m r) / (sum over k' of exp (s r k' - m r)), with every literal kept as its word.
-/
import proofs.«154701_j71133248356497_2_alg».proof.Proof.Gen.KernelIdeal.Skeleton
import Idealize.ShloMosaic.Lib.Pipeline.Value
import Idealize.ShloMosaic.Lib.ValueIdx
import Idealize.ShloMosaic.PureOps.Ideal.Laws

open scoped BigOperators

noncomputable section

namespace Cert.KernelIdeal.HandValue

open Cert.KernelIdeal Cert.KernelIdeal.Gen Idealize.ShloMosaic Idealize.ShloMosaic.ValueIdx

/-- The maximum of a row of extended reals as the body takes it: from the word of -inf. -/
def rowMax {n : Nat} (s : Fin n → EReal) : EReal :=
  max (Ideal.ofBits .f32 0xFF800000#32) ((Finset.univ : Finset (Fin n)).fold max (Ideal.ofBits .f32 0xFF800000#32) s)

/-- The softmax of a row at one coordinate. -/
def softmaxRow {n : Nat} (s : Fin n → EReal) (k : Fin n) : EReal :=
  Ideal.div (Ideal.exp (s k - rowMax s)) (∑ k' : Fin n, Ideal.exp (s k' - rowMax s))

/-- A [512] vector viewed [512, 1] and broadcast along the 2048 columns reads, at (r, k), the vector at r. -/
theorem col_bcast_apply {α : Type} (x : S512.Idx → α) (h1 : S512.ShapeCasts S512x1) (h2 : S512x1.Broadcasts S512x2048)
    (r : Fin 512) (k : Fin 2048) :
    broadcastTo S512x2048 (shapeCast S512x1 x h1) h2 (ix2 r k) = x (ix1 r) := by
  refine (broadcastTo_apply _ h2 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])).trans ?_
  refine shapeCast_apply x h1 (ix2 r (0 : Fin 1)) (ix1 r) ?_
  rw [Shape.rowMajor_val_one, Shape.rowMajor_val_two]
  show r.val = r.val * 1 + 0
  omega

/-- The source index over row r with column k inserted is (r, k). -/
theorem lift_row (h : S512x2048.Reduces [1] S512) (r : Fin 512) (k : Fin 2048) :
    h.lift (ix1 r) k = ix2 r k :=
  funext fun a => Fin.ext (by
    match a with
    | ⟨0, _⟩ => rfl
    | ⟨1, _⟩ => rfl)

/-- The row maximum of the body at row r: the fold of max from the word of -inf over the row. -/
theorem rowmax_apply (sc : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 sc 0xFF800000#32 h hφ hacc (ix1 r)
      = (Finset.univ : Finset (Fin 2048)).fold max (Ideal.ofBits .f32 0xFF800000#32) (fun k => sc (ix2 r k)) := by
  refine (Ideal.multiReduction_maximumf_single sc 0xFF800000#32 h hφ hacc (ix1 r)).trans ?_
  show (Finset.univ : Finset (Fin 2048)).fold max (Ideal.ofBits .f32 0xFF800000#32) (fun k => sc (h.lift (ix1 r) k)) = _
  exact congrArg (fun f => (Finset.univ : Finset (Fin 2048)).fold max (Ideal.ofBits .f32 0xFF800000#32) f)
    (funext fun k => congrArg sc (lift_row h r k))

/-- The row sum of the body at row r. -/
theorem rowsum_apply (e : FVec Ideal S512x2048 .f32) (h : S512x2048.Reduces [1] S512) (hφ : FKind.Formats .f32)
    (hacc : (0x00000000#32 : BitVec 32) = FKind.add.neutral .f32 hφ) (r : Fin 512) :
    multiReduction .add [1] S512 e 0x00000000#32 h hφ hacc (ix1 r) = ∑ k : Fin 2048, e (ix2 r k) := by
  refine (Ideal.multiReduction_add_single e 0x00000000#32 h hφ hacc (ix1 r)).trans ?_
  show ∑ k : Fin 2048, e (h.lift (ix1 r) k) = _
  exact Finset.sum_congr rfl fun k _ => congrArg e (lift_row h r k)

/-- The row softmax as the body spells it. -/
def probs (sc : FVec Ideal S512x2048 .f32) : FVec Ideal S512x2048 .f32 :=
  have v39 : FVec Ideal S512 .f32 := multiReduction .maximumf [1] S512 sc 0xFF800000#32 reduces_S512x2048_S512 (.inl rfl) rfl
  have cst_16 : Ideal .f32 := Scalar.ofBits .f32 0xFF800000#32
  have v40 : FVec Ideal S512 .f32 := broadcast S512 cst_16
  have v41 : FVec Ideal S512 .f32 := maximumf v40 v39
  have v42 : FVec Ideal S512x1 .f32 := shapeCast S512x1 v41 shapeCasts_S512_S512x1
  have v43 : FVec Ideal S512x2048 .f32 := broadcastTo S512x2048 v42 broadcasts_S512x1_S512x2048
  have v44 : FVec Ideal S512x2048 .f32 := subf sc v43
  have v45 : FVec Ideal S512x2048 .f32 := exp v44
  have v46 : FVec Ideal S512 .f32 := multiReduction .add [1] S512 v45 0x00000000#32 reduces_S512x2048_S512 (.inl rfl) rfl
  have v47 : FVec Ideal S512x1 .f32 := shapeCast S512x1 v46 shapeCasts_S512_S512x1
  have v48 : FVec Ideal S512x2048 .f32 := broadcastTo S512x2048 v47 broadcasts_S512x1_S512x2048
  have v49 : FVec Ideal S512x2048 .f32 := divf v45 v48
  v49

/-- The body's row softmax at (r, k). -/
theorem probs_apply (sc : FVec Ideal S512x2048 .f32) (r : Fin 512) (k : Fin 2048) :
    probs sc (ix2 r k) = softmaxRow (fun k' => sc (ix2 r k')) k := by
  have hm : ∀ k' : Fin 2048,
      broadcastTo S512x2048 (shapeCast S512x1 (maximumf (broadcast S512 (Scalar.ofBits (F := Ideal) .f32 0xFF800000#32))
        (multiReduction .maximumf [1] S512 sc 0xFF800000#32 reduces_S512x2048_S512 (.inl rfl) rfl)) shapeCasts_S512_S512x1)
        broadcasts_S512x1_S512x2048 (ix2 r k') = rowMax (fun k'' => sc (ix2 r k'')) := fun k' => by
    refine (col_bcast_apply _ _ _ r k').trans ?_
    refine (maximumf_apply _ _ (ix1 r)).trans ?_
    exact congrArg (max (Ideal.ofBits .f32 0xFF800000#32)) (rowmax_apply sc _ _ _ r)
  unfold probs softmaxRow
  refine (divf_apply _ _ (ix2 r k)).trans ?_
  refine congrArg₂ Ideal.div ?_ ?_
  · show Ideal.exp (sc (ix2 r k) - _) = _
    rw [hm k]
  · refine (col_bcast_apply _ _ _ r k).trans ?_
    refine (rowsum_apply _ _ _ _ r).trans ?_
    refine Finset.sum_congr rfl fun k' _ => ?_
    show Ideal.exp (sc (ix2 r k') - _) = _
    rw [hm k']

end Cert.KernelIdeal.HandValue

end
-- ==== Proof.KI.PayAttn.lean ====
/-
  The attention body read at an index, at the ideal values.  A block of 128 lanes holds two heads of 64
  lanes.  For head h (0 or 1) the body slices lanes 64h .. 64h+63 of the query, key and value blocks,
  scales the query by the word of 1/8, contracts it with the transposed key over the 64 lanes, takes the
  row softmax over the 2048 keys, and contracts that with the value slice over the keys; the two heads'
  [512, 64] results are laid side by side.  At (0, r, 64h + d) the stored block is therefore
  the sum over keys k of softmax_k (score r ·) times the value at (0, k, 64h + d).
-/
import proofs.«154701_j71133248356497_2_alg».proof.Proof.KI.MatmulAt
import proofs.«154701_j71133248356497_2_alg».proof.Proof.KI.RowOps

open scoped BigOperators

noncomputable section

namespace Cert.KernelIdeal.HandValue

open Cert.KernelIdeal Cert.KernelIdeal.Gen Idealize.ShloMosaic Idealize.ShloMosaic.ValueIdx

/-- Lane d of the head at lane offset o, among the 128 lanes of a block. -/
abbrev laneAt (o : Nat) (ho : o + 64 ≤ 128) (d : Fin 64) : Fin 128 := ⟨o + d.val, by omega⟩

/-- The score of query row r against key k for the head at lane offset o: the contraction over the head's
    lanes of the pre-scaled query with the key. -/
def scoreAt (v0 : FVec Ideal S1x512x128 .f32) (v2 : FVec Ideal S1x2048x128 .f32) (o : Nat) (ho : o + 64 ≤ 128)
    (r : Fin 512) (k : Fin 2048) : EReal :=
  ∑ d : Fin 64, (v0 (ix3 (0 : Fin 1) r (laneAt o ho d)) * Ideal.ofBits .f32 0x3E000000#32) * v2 (ix3 (0 : Fin 1) k (laneAt o ho d))

/-- The attended value of the head at lane offset o, at query row r and lane d. -/
def attnAt (v0 : FVec Ideal S1x512x128 .f32) (v2 v4 : FVec Ideal S1x2048x128 .f32) (o : Nat) (ho : o + 64 ≤ 128)
    (r : Fin 512) (d : Fin 64) : EReal :=
  ∑ k : Fin 2048, softmaxRow (scoreAt v0 v2 o ho r) k * v4 (ix3 (0 : Fin 1) k (laneAt o ho d))

/-! ## The layout steps -/

/-- A [1, R, 128] block viewed [R, 128] reads (r, c) at (0, r, c). -/
theorem drop_unit_apply {α : Type} {R : Nat} (x : (⟨3, ![1, R, 128]⟩ : Shape).Idx → α)
    (h : (⟨3, ![1, R, 128]⟩ : Shape).ShapeCasts ⟨2, ![R, 128]⟩) (r : Fin R) (c : Fin 128) :
    shapeCast ⟨2, ![R, 128]⟩ x h (ix2 r c) = x (ix3 (0 : Fin 1) r c) := by
  refine shapeCast_apply x h (ix2 r c) (ix3 (0 : Fin 1) r c) ?_
  rw [Shape.rowMajor_val_two, Shape.rowMajor_val_three]
  show (0 * R + r.val) * 128 + c.val = r.val * 128 + c.val
  omega

/-- The 64-lane slice at lane offset o of an [R, 128] vector reads (r, d) at (r, o + d). -/
theorem lane_slice_apply {α : Type} {R : Nat} (x : (⟨2, ![R, 128]⟩ : Shape).Idx → α) (o : Nat) (ho : o + 64 ≤ 128)
    (h : (⟨2, ![R, 128]⟩ : Shape).Slices ![0, o] ⟨2, ![R, 64]⟩) (r : Fin R) (d : Fin 64) :
    extractStridedSlice ⟨2, ![R, 64]⟩ ![0, o] x h (ix2 r d) = x (ix2 r (laneAt o ho d)) :=
  extractStridedSlice_apply _ x h (ix2 r d) (ix2 r (laneAt o ho d)) (fun a => match a with
    | ⟨0, _⟩ => by show r.val = 0 + r.val; omega
    | ⟨1, _⟩ => rfl)

/-- The transposed [2048, 64] key slice reads (d, k) at (k, d). -/
theorem key_transpose_apply {α : Type} (x : S2048x64.Idx → α) (h : S2048x64.Transposes [1, 0] S64x2048) (d : Fin 64) (k : Fin 2048) :
    transpose S64x2048 [1, 0] x h (ix2 d k) = x (ix2 k d) :=
  transpose_apply [1, 0] x h (ix2 d k) (ix2 k d) (fun b => match b with
    | ⟨0, _⟩ => rfl
    | ⟨1, _⟩ => rfl)

/-! ## The body's pieces, as it spells them, for the head at lane offset o -/

/-- The score matrix of one head. -/
def scoresOf (o : Nat) (hq : S512x128.Slices ![0, o] S512x64) (hk : S2048x128.Slices ![0, o] S2048x64)
    (v0 : FVec Ideal S1x512x128 .f32) (v2 : FVec Ideal S1x2048x128 .f32) : FVec Ideal S512x2048 .f32 :=
  matmul dot_S512x64_S64x2048_S512x2048_1_0_0_1_n_n none
    (truncf .bf16 (mulf (extractStridedSlice S512x64 ![0, o] (k1_pay2 (F := Ideal) v0) hq)
      (broadcast S512x64 (Scalar.ofBits (F := Ideal) .f32 0x3E000000#32))) bitsLt_bf16_f32)
    (transpose S64x2048 [1, 0] (truncf .bf16 (extractStridedSlice S2048x64 ![0, o] (k1_pay3 (F := Ideal) v2) hk) bitsLt_bf16_f32)
      transposes_S2048x64_p1_0_S64x2048)
    (constant S512x2048 .f32 0x00000000#32)

/-- The value slice of one head. -/
def valsOf (o : Nat) (hv : S2048x128.Slices ![0, o] S2048x64) (v4 : FVec Ideal S1x2048x128 .f32) : FVec Ideal S2048x64 .bf16 :=
  truncf .bf16 (extractStridedSlice S2048x64 ![0, o] (k1_pay4 (F := Ideal) v4) hv) bitsLt_bf16_f32

/-- One head's result from its scores and its values. -/
def headOut (sc : FVec Ideal S512x2048 .f32) (vv : FVec Ideal S2048x64 .bf16) : FVec Ideal S512x64 .f32 :=
  matmul dot_S512x2048_S2048x64_S512x64_1_0_0_1_n_n none (truncf .bf16 (probs sc) bitsLt_bf16_f32) vv
    (constant S512x64 .f32 0x00000000#32)

theorem scoresOf_apply (o : Nat) (ho : o + 64 ≤ 128) (hq : S512x128.Slices ![0, o] S512x64) (hk : S2048x128.Slices ![0, o] S2048x64)
    (v0 : FVec Ideal S1x512x128 .f32) (v2 : FVec Ideal S1x2048x128 .f32) (r : Fin 512) (k : Fin 2048) :
    scoresOf o hq hk v0 v2 (ix2 r k) = scoreAt v0 v2 o ho r k := by
  unfold scoresOf scoreAt
  refine (mm_scores_apply _ _ r k).trans ?_
  refine Finset.sum_congr rfl fun d _ => ?_
  refine congrArg₂ (· * ·) ?_ ?_
  · show extractStridedSlice S512x64 ![0, o] (k1_pay2 (F := Ideal) v0) hq (ix2 r d) * Ideal.ofBits .f32 0x3E000000#32 = _
    refine congrArg (· * Ideal.ofBits .f32 0x3E000000#32) ?_
    refine (lane_slice_apply (k1_pay2 (F := Ideal) v0) o ho hq r d).trans ?_
    exact drop_unit_apply v0 _ r _
  · refine (key_transpose_apply _ _ d k).trans ?_
    show extractStridedSlice S2048x64 ![0, o] (k1_pay3 (F := Ideal) v2) hk (ix2 k d) = _
    refine (lane_slice_apply (k1_pay3 (F := Ideal) v2) o ho hk k d).trans ?_
    exact drop_unit_apply v2 _ k _

theorem valsOf_apply (o : Nat) (ho : o + 64 ≤ 128) (hv : S2048x128.Slices ![0, o] S2048x64) (v4 : FVec Ideal S1x2048x128 .f32)
    (k : Fin 2048) (d : Fin 64) :
    valsOf o hv v4 (ix2 k d) = v4 (ix3 (0 : Fin 1) k (laneAt o ho d)) := by
  show extractStridedSlice S2048x64 ![0, o] (k1_pay4 (F := Ideal) v4) hv (ix2 k d) = _
  refine (lane_slice_apply (k1_pay4 (F := Ideal) v4) o ho hv k d).trans ?_
  exact drop_unit_apply v4 _ k _

theorem headOut_apply (sc : FVec Ideal S512x2048 .f32) (vv : FVec Ideal S2048x64 .bf16) (r : Fin 512) (d : Fin 64) :
    headOut sc vv (ix2 r d) = ∑ k : Fin 2048, softmaxRow (fun k' => sc (ix2 r k')) k * vv (ix2 k d) := by
  unfold headOut
  refine (mm_mix_apply _ vv r d).trans ?_
  refine Finset.sum_congr rfl fun k _ => ?_
  exact congrArg (· * vv (ix2 k d)) (probs_apply sc r k)

/-- One head's result at (r, d) from the loaded blocks. -/
theorem head_apply (o : Nat) (ho : o + 64 ≤ 128) (hq : S512x128.Slices ![0, o] S512x64) (hk hv : S2048x128.Slices ![0, o] S2048x64)
    (v0 : FVec Ideal S1x512x128 .f32) (v2 v4 : FVec Ideal S1x2048x128 .f32) (r : Fin 512) (d : Fin 64) :
    headOut (scoresOf o hq hk v0 v2) (valsOf o hv v4) (ix2 r d) = attnAt v0 v2 v4 o ho r d := by
  refine (headOut_apply _ _ r d).trans ?_
  unfold attnAt
  have hs : (fun k' => scoresOf o hq hk v0 v2 (ix2 r k')) = scoreAt v0 v2 o ho r :=
    funext fun k' => scoresOf_apply o ho hq hk v0 v2 r k'
  rw [hs]
  exact Finset.sum_congr rfl fun k _ => congrArg (softmaxRow (scoreAt v0 v2 o ho r) k * ·) (valsOf_apply o ho hv v4 k d)

/-! ## The payloads are these pieces -/

theorem k1_pay5_eq (v0 : FVec Ideal S1x512x128 .f32) (v2 v4 : FVec Ideal S1x2048x128 .f32) :
    k1_pay5 (F := Ideal) v0 v2 v4
      = headOut (scoresOf 0 slices_S512x128_o0_0_S512x64 slices_S2048x128_o0_0_S2048x64 v0 v2)
          (valsOf 0 slices_S2048x128_o0_0_S2048x64 v4) := rfl

theorem k1_pay6_eq (v4 : FVec Ideal S1x2048x128 .f32) :
    k1_pay6 (F := Ideal) v4 = valsOf 64 slices_S2048x128_o0_64_S2048x64 v4 := rfl

theorem k1_pay7_eq (v0 : FVec Ideal S1x512x128 .f32) (v2 : FVec Ideal S1x2048x128 .f32) :
    k1_pay7 (F := Ideal) v0 v2 = scoresOf 64 slices_S512x128_o0_64_S512x64 slices_S2048x128_o0_64_S2048x64 v0 v2 := rfl

theorem k1_pay1_eq (v28 : FVec Ideal S512x64 .f32) (v36 : FVec Ideal S2048x64 .bf16) (v38 : FVec Ideal S512x2048 .f32) :
    k1_pay1 (F := Ideal) v28 v36 v38
      = shapeCast S1x512x128 (truncf .bf16 (concatenate S512x128 1 [⟨S512x64, v28⟩, ⟨S512x64, headOut v38 v36⟩]
          concatenates_S512x64_S512x64_S512x128_d1) bitsLt_bf16_f32) shapeCasts_S512x128_S1x512x128 := rfl

/-! ## The stored block at an index -/

/-- A [512, 128] vector stored as a [1, 512, 128] block reads (0, r, c) at (r, c). -/
theorem add_unit_apply {α : Type} (x : S512x128.Idx → α) (h : S512x128.ShapeCasts S1x512x128) (r : Fin 512) (c : Fin 128) :
    shapeCast S1x512x128 x h (ix3 (0 : Fin 1) r c) = x (ix2 r c) := by
  refine shapeCast_apply x h (ix3 (0 : Fin 1) r c) (ix2 r c) ?_
  rw [Shape.rowMajor_val_two, Shape.rowMajor_val_three]
  show r.val * 128 + c.val = (0 * 512 + r.val) * 128 + c.val
  omega

/-- The two heads side by side: the left 64 lanes are the first piece. -/
theorem heads_left {α : Type} (x₁ x₂ : S512x64.Idx → α) (h : Shape.Concatenates [S512x64, S512x64] S512x128 1)
    (r : Fin 512) (d : Fin 64) :
    concatenate S512x128 1 [⟨S512x64, x₁⟩, ⟨S512x64, x₂⟩] h (ix2 r (laneAt 0 (by omega) d)) = x₁ (ix2 r d) :=
  concatenate_pair_apply_left 1 x₁ x₂ h _ rfl (ix2 r d) (fun b => match b with
    | ⟨0, _⟩ => rfl
    | ⟨1, _⟩ => by show d.val = 0 + d.val; omega)

/-- … and the right 64 lanes the second. -/
theorem heads_right {α : Type} (x₁ x₂ : S512x64.Idx → α) (h : Shape.Concatenates [S512x64, S512x64] S512x128 1)
    (r : Fin 512) (d : Fin 64) :
    concatenate S512x128 1 [⟨S512x64, x₁⟩, ⟨S512x64, x₂⟩] h (ix2 r (laneAt 64 (by omega) d)) = x₂ (ix2 r d) :=
  concatenate_pair_apply_right 1 x₁ x₂ h _ rfl rfl (ix2 r d) (fun b hb => match b, hb with
    | ⟨0, _⟩, _ => rfl
    | ⟨1, _⟩, hb => absurd rfl hb) (by show d.val + 64 = 64 + d.val; omega)

/-- THE ATTENTION BLOCK AT AN INDEX, first head: lanes 0 .. 63. -/
theorem attn_block_head0 (v0 : FVec Ideal S1x512x128 .f32) (v2 v4 : FVec Ideal S1x2048x128 .f32) (r : Fin 512) (d : Fin 64) :
    k1_pay1 (F := Ideal) (k1_pay5 (F := Ideal) v0 v2 v4) (k1_pay6 (F := Ideal) v4) (k1_pay7 (F := Ideal) v0 v2) (ix3 (0 : Fin 1) r (laneAt 0 (by omega) d))
      = attnAt v0 v2 v4 0 (by omega) r d := by
  rw [k1_pay1_eq]
  refine (add_unit_apply _ _ r _).trans ?_
  show concatenate S512x128 1 [⟨S512x64, k1_pay5 (F := Ideal) v0 v2 v4⟩, ⟨S512x64, headOut (k1_pay7 (F := Ideal) v0 v2) (k1_pay6 (F := Ideal) v4)⟩]
      concatenates_S512x64_S512x64_S512x128_d1 (ix2 r (laneAt 0 (by omega) d)) = _
  refine (heads_left _ _ _ r d).trans ?_
  rw [k1_pay5_eq]
  exact head_apply 0 (by omega) _ _ _ v0 v2 v4 r d

/-- THE ATTENTION BLOCK AT AN INDEX, second head: lanes 64 .. 127. -/
theorem attn_block_head1 (v0 : FVec Ideal S1x512x128 .f32) (v2 v4 : FVec Ideal S1x2048x128 .f32) (r : Fin 512) (d : Fin 64) :
    k1_pay1 (F := Ideal) (k1_pay5 (F := Ideal) v0 v2 v4) (k1_pay6 (F := Ideal) v4) (k1_pay7 (F := Ideal) v0 v2) (ix3 (0 : Fin 1) r (laneAt 64 (by omega) d))
      = attnAt v0 v2 v4 64 (by omega) r d := by
  rw [k1_pay1_eq]
  refine (add_unit_apply _ _ r _).trans ?_
  show concatenate S512x128 1 [⟨S512x64, k1_pay5 (F := Ideal) v0 v2 v4⟩, ⟨S512x64, headOut (k1_pay7 (F := Ideal) v0 v2) (k1_pay6 (F := Ideal) v4)⟩]
      concatenates_S512x64_S512x64_S512x128_d1 (ix2 r (laneAt 64 (by omega) d)) = _
  refine (heads_right _ _ _ r d).trans ?_
  rw [k1_pay7_eq, k1_pay6_eq]
  exact head_apply 64 (by omega) _ _ _ v0 v2 v4 r d

end Cert.KernelIdeal.HandValue

end
-- ==== Proof.KI.ScaleLaw.lean ====
/-
  The scale law of the attention scores: the kernel multiplies the query by the word of 1/8 before
  the contraction, the specification divides the contracted sum by the square root of the word of 64.
  On the extended reals a nonnegative real factor distributes over a finite sum with no finiteness
  assumption, and division by a nonzero real is multiplication by its inverse.
-/
import Idealize.ShloMosaic.PureOps.Ideal
import Idealize.ShloMosaic.PureOps.Ideal.Laws

open scoped BigOperators

namespace Cert.KernelIdeal.HandValue

open Idealize.ShloMosaic

/-- The f32 word `0x3E000000` denotes the real 1/8. -/
theorem ofBits_eighth : Ideal.ofBits .f32 0x3E000000#32 = ((1 / 8 : ℝ) : EReal) := by
  simp [Ideal.ofBits, Ideal.ieee]
  rw [← EReal.coe_mul, EReal.coe_eq_coe_iff]
  norm_num

/-- The f32 word `0x42800000` denotes the real 64. -/
theorem ofBits_sixtyfour : Ideal.ofBits .f32 0x42800000#32 = ((64 : ℝ) : EReal) := by
  simp [Ideal.ofBits, Ideal.ieee]
  rw [← EReal.coe_mul, EReal.coe_eq_coe_iff]
  norm_num

/-- The square root of the word of 64 is the real 8. -/
theorem sqrt_sixtyfour : Ideal.sqrt (Ideal.ofBits .f32 0x42800000#32) = ((8 : ℝ) : EReal) := by
  rw [ofBits_sixtyfour, Ideal.sqrt_coe, if_neg (by norm_num)]
  congr 1
  rw [show (64 : ℝ) = 8 * 8 by norm_num, Real.sqrt_mul_self (by norm_num)]

/-- A nonnegative real factor comes out of a finite sum of extended reals, whatever the summands. -/
theorem sum_mul_coe {ι : Type*} (s : Finset ι) (f : ι → EReal) {c : ℝ} (hc : 0 ≤ c) :
    ∑ d ∈ s, f d * (c : EReal) = (∑ d ∈ s, f d) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- THE SCALE LAW: the contraction of the pre-scaled left factor with the right one is the plain
    contraction divided by the square root of the word of 64. -/
theorem scale_law {ι : Type*} (s : Finset ι) (a b : ι → EReal) :
    ∑ d ∈ s, (a d * Ideal.ofBits .f32 0x3E000000#32) * b d
      = Ideal.div (∑ d ∈ s, a d * b d) (Ideal.sqrt (Ideal.ofBits .f32 0x42800000#32)) := by
  rw [sqrt_sixtyfour, Ideal.div_coe (by norm_num : (8 : ℝ) ≠ 0), ofBits_eighth,
    ← sum_mul_coe s _ (by norm_num : (0 : ℝ) ≤ 1 / 8)]
  exact Finset.sum_congr rfl fun d _ => by rw [mul_assoc, mul_comm _ (b d), ← mul_assoc]

/-- The same over a whole finite coordinate range. -/
theorem scale_law_fin {n : Nat} (a b : Fin n → EReal) :
    ∑ d : Fin n, (a d * Ideal.ofBits .f32 0x3E000000#32) * b d
      = Ideal.div (∑ d : Fin n, a d * b d) (Ideal.sqrt (Ideal.ofBits .f32 0x42800000#32)) :=
  scale_law Finset.univ a b

end Cert.KernelIdeal.HandValue
-- ==== Proof.Spec.lean ====
/-
  Multi-head attention with a fused query/key/value projection, as ONE function of the five argument arrays, index by
  index, on the extended reals.

  For an input x of shape [2, 2048, 1024], a projection matrix W [1024, 3072] with bias bq [3072], and an output matrix
  Wo [1024, 1024] with bias bo [1024]:
    proj b s n      = (sum over k of x[b, s, k] * W[k, n]) + bq[n]                    the projected row, 3072 columns:
                      columns 0..1023 are the queries, 1024..2047 the keys, 2048..3071 the values; head h (of 16)
                      owns the 64 columns 64h .. 64h + 63 of each of the three parts
    score b h q k   = (sum over d of proj b q (64h + d) * proj b k (1024 + 64h + d)) / sqrt 64
    top b h q       = max (-inf) (the maximum over k of score b h q k, folded from -inf)
    weight b h q k  = exp (score b h q k - top b h q)
    mass b h q      = sum over k of weight b h q k
    share b h q k   = weight b h q k / mass b h q                                      the softmax over the keys
    mix b q h d     = sum over k of proj b k (2048 + 64h + d) * share b h q k          the attended value
    out b s o       = (sum over c of mix b s (c / 64) (c % 64) * Wo[c, o]) + bo[o]
  Float literals stay the words the programs print (-inf is 0xFF800000, 64.0 is 0x42800000); division is the extended
  reals' total division `Ideal.div`, the square root `Ideal.sqrt`, the exponential `Ideal.exp`.
-/
import Idealize.ShloMosaic.PureOps.Ideal
import Idealize.ShloMosaic.Lib.ValueIdx
import Mathlib.Algebra.BigOperators.Fin

noncomputable section

namespace Cert.Mha

open Idealize.ShloMosaic Idealize.ShloMosaic.ValueIdx

/-- The input's shape, the projection's, its bias's, the output matrix's, its bias's. -/
abbrev SX : Shape := ⟨3, ![2, 2048, 1024]⟩
abbrev SW : Shape := ⟨2, ![1024, 3072]⟩
abbrev SB : Shape := ⟨1, ![3072]⟩
abbrev SWo : Shape := ⟨2, ![1024, 1024]⟩
abbrev SBo : Shape := ⟨1, ![1024]⟩

/-- The word of minus infinity and the word of 64.0, as the extended reals they denote. -/
abbrev negInf : EReal := Ideal.ofBits .f32 0xFF800000#32
abbrev sixtyFour : EReal := Ideal.ofBits .f32 0x42800000#32

/-- Head `h`'s lane `d` among the query columns, the key columns, the value columns, and among the 1024 merged
    columns of the attended values. -/
def qcol (h : Fin 16) (d : Fin 64) : Fin 3072 := ⟨64 * h.val + d.val, by omega⟩
def kcol (h : Fin 16) (d : Fin 64) : Fin 3072 := ⟨1024 + (64 * h.val + d.val), by omega⟩
def vcol (h : Fin 16) (d : Fin 64) : Fin 3072 := ⟨2048 + (64 * h.val + d.val), by omega⟩
/-- The head and the lane of a merged column. -/
def headOf (c : Fin 1024) : Fin 16 := ⟨c.val / 64, by omega⟩
def laneOf (c : Fin 1024) : Fin 64 := ⟨c.val % 64, by omega⟩

variable (x : SX.Idx → EReal) (W : SW.Idx → EReal) (bq : SB.Idx → EReal) (Wo : SWo.Idx → EReal) (bo : SBo.Idx → EReal)

/-- The projected row: x times W plus the bias. -/
def proj (b : Fin 2) (s : Fin 2048) (n : Fin 3072) : EReal :=
  (∑ k : Fin 1024, x (ix3 b s k) * W (ix2 k n)) + bq (ix1 n)

/-- Query `q` against key `k` in head `h`, divided by the square root of the head size. -/
def score (b : Fin 2) (h : Fin 16) (q k : Fin 2048) : EReal :=
  Ideal.div (∑ d : Fin 64, proj x W bq b q (qcol h d) * proj x W bq b k (kcol h d)) (Ideal.sqrt sixtyFour)

/-- The largest score of a query's row, from minus infinity. -/
def top (b : Fin 2) (h : Fin 16) (q : Fin 2048) : EReal :=
  max negInf ((Finset.univ : Finset (Fin 2048)).fold max negInf fun k => score x W bq b h q k)

/-- The unnormalised softmax weight, its row sum, the weight's share of it. -/
def weight (b : Fin 2) (h : Fin 16) (q k : Fin 2048) : EReal :=
  Ideal.exp (score x W bq b h q k - top x W bq b h q)
def mass (b : Fin 2) (h : Fin 16) (q : Fin 2048) : EReal :=
  ∑ k : Fin 2048, weight x W bq b h q k
def share (b : Fin 2) (h : Fin 16) (q k : Fin 2048) : EReal :=
  Ideal.div (weight x W bq b h q k) (mass x W bq b h q)

/-- The attended value: the values of head `h`, lane `d`, averaged by the query's softmax over the keys. -/
def mix (b : Fin 2) (q : Fin 2048) (h : Fin 16) (d : Fin 64) : EReal :=
  ∑ k : Fin 2048, proj x W bq b k (vcol h d) * share x W bq b h q k

/-- The result at coordinates: the heads merged along the columns, times Wo, plus the bias. -/
def outAt (b : Fin 2) (s : Fin 2048) (o : Fin 1024) : EReal :=
  (∑ c : Fin 1024, mix x W bq b s (headOf c) (laneOf c) * Wo (ix2 c o)) + bo (ix1 o)

/-- The result array. -/
def out : SX.Idx → EReal := fun i => outAt x W bq Wo bo (i 0) (i 1) (i 2)

theorem out_ix3 (b : Fin 2) (s : Fin 2048) (o : Fin 1024) :
    out x W bq Wo bo (ix3 b s o) = outAt x W bq Wo bo b s o := rfl

end Cert.Mha

end
-- ==== Proof.KI.AttnSpec.lean ====
/-
  The attended values as one function of the projected array Q [2, 2048, 3072], index by index, in the
  kernel's spelling (the query pre-scaled by the word of 1/8, the softmax weight times the value), and its
  agreement with the specification's spelling when Q is the projection of the inputs: the scale law turns
  the pre-scaled contraction into the contraction divided by the square root of the word of 64, the softmax
  is the same expression, and the product commutes.
-/
import proofs.«154701_j71133248356497_2_alg».proof.Proof.KI.RowOps
import proofs.«154701_j71133248356497_2_alg».proof.Proof.KI.ScaleLaw
import proofs.«154701_j71133248356497_2_alg».proof.Proof.Spec

open scoped BigOperators

noncomputable section

namespace Cert.KernelIdeal.HandValue

open Cert.KernelIdeal Idealize.ShloMosaic Idealize.ShloMosaic.ValueIdx
open Cert.Mha (qcol kcol vcol headOf laneOf)

/-- Query q against key k in head h of batch b, the query pre-scaled by the word of 1/8. -/
def scoreG (Q : S2x2048x3072.Idx → EReal) (b : Fin 2) (h : Fin 16) (q k : Fin 2048) : EReal :=
  ∑ d : Fin 64, (Q (ix3 b q (qcol h d)) * Ideal.ofBits .f32 0x3E000000#32) * Q (ix3 b k (kcol h d))

/-- The attended value of head h, lane d, for query q of batch b. -/
def mixG (Q : S2x2048x3072.Idx → EReal) (b : Fin 2) (q : Fin 2048) (h : Fin 16) (d : Fin 64) : EReal :=
  ∑ k : Fin 2048, softmaxRow (scoreG Q b h q) k * Q (ix3 b k (vcol h d))

/-- The attended values, the heads merged along the columns. -/
def attnG (Q : S2x2048x3072.Idx → EReal) : S2x2048x1024.Idx → EReal :=
  fun i => mixG Q (i 0) (i 1) (headOf (i 2)) (laneOf (i 2))

theorem attnG_ix3 (Q : S2x2048x3072.Idx → EReal) (b : Fin 2) (s : Fin 2048) (c : Fin 1024) :
    attnG Q (ix3 b s c) = mixG Q b s (headOf c) (laneOf c) := rfl

section Bridge

variable (x : Cert.Mha.SX.Idx → EReal) (W : Cert.Mha.SW.Idx → EReal) (bq : Cert.Mha.SB.Idx → EReal)
variable (Q : S2x2048x3072.Idx → EReal) (hQ : ∀ (b : Fin 2) (s : Fin 2048) (n : Fin 3072), Q (ix3 b s n) = Cert.Mha.proj x W bq b s n)

include hQ in
/-- The pre-scaled score is the specification's score. -/
theorem scoreG_eq_score (b : Fin 2) (h : Fin 16) (q k : Fin 2048) :
    scoreG Q b h q k = Cert.Mha.score x W bq b h q k := by
  unfold scoreG Cert.Mha.score
  simp only [hQ]
  exact scale_law_fin (fun d => Cert.Mha.proj x W bq b q (qcol h d)) (fun d => Cert.Mha.proj x W bq b k (kcol h d))

/-- The row softmax of the specification's scores is its share. -/
theorem softmaxRow_score (b : Fin 2) (h : Fin 16) (q k : Fin 2048) :
    softmaxRow (fun k' => Cert.Mha.score x W bq b h q k') k = Cert.Mha.share x W bq b h q k := rfl

include hQ in
/-- The kernel's attended value is the specification's. -/
theorem mixG_eq_mix (b : Fin 2) (q : Fin 2048) (h : Fin 16) (d : Fin 64) :
    mixG Q b q h d = Cert.Mha.mix x W bq b q h d := by
  unfold mixG Cert.Mha.mix
  have hs : scoreG Q b h q = fun k' => Cert.Mha.score x W bq b h q k' := funext fun k' => scoreG_eq_score x W bq Q hQ b h q k'
  rw [hs]
  refine Finset.sum_congr rfl fun k _ => ?_
  rw [softmaxRow_score, hQ, mul_comm]

end Bridge

end Cert.KernelIdeal.HandValue

end
-- ==== Proof.KI.Region1.lean ====
/-
  Region 1 from blocks to the array, at the ideal values.  Every grid point (batch b, head pair g, query block j)
  writes back the attended values of heads 2g and 2g + 1 for the 512 queries of block j, computed from three
  windows of the ONE projected array Q [2, 2048, 3072]: the queries' lanes, and the same heads' lanes among the
  key columns (from 1024) and the value columns (from 2048).  That is its block of one whole-array function of Q,
  the output's blocks tile its array, and so the array ends holding that function.
-/
import proofs.«154701_j71133248356497_2_alg».proof.Proof.KI.Chain
import proofs.«154701_j71133248356497_2_alg».proof.Proof.KI.PayAttn
import proofs.«154701_j71133248356497_2_alg».proof.Proof.KI.AttnSpec
import Idealize.ShloMosaic.Lib.Pipeline.Value

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Mha (qcol kcol vcol headOf laneOf)

/-- One head of one block is one head of the array, when the three loaded blocks are the array's lanes. -/
theorem attnAt_eq_mixG (Q : S2x2048x3072.Idx → EReal) (v0 : FVec Ideal S1x512x128 .f32) (v2 v4 : FVec Ideal S1x2048x128 .f32)
    (o : Nat) (ho : o + 64 ≤ 128) (b : Fin 2) (h : Fin 16) (r : Fin 512) (s : Fin 2048) (d : Fin 64)
    (hq : ∀ d' : Fin 64, v0 (ix3 (0 : Fin 1) r (laneAt o ho d')) = Q (ix3 b s (qcol h d')))
    (hk : ∀ (k : Fin 2048) (d' : Fin 64), v2 (ix3 (0 : Fin 1) k (laneAt o ho d')) = Q (ix3 b k (kcol h d')))
    (hv : ∀ k : Fin 2048, v4 (ix3 (0 : Fin 1) k (laneAt o ho d)) = Q (ix3 b k (vcol h d))) :
    attnAt v0 v2 v4 o ho r d = mixG Q b s h d := by
  unfold attnAt mixG
  have hs : scoreAt v0 v2 o ho r = scoreG Q b h s := funext fun k => by
    unfold scoreAt scoreG
    exact Finset.sum_congr rfl fun d' _ => by rw [hq d', hk k d']
  rw [hs]
  exact Finset.sum_congr rfl fun k _ => by rw [hv k]

/-! ## The blocks -/

variable (V : (c : Dev nD) → (b : Ref sig .tc) → Buf (Elt Ideal) ((c : Thread nD τ).loc b))

theorem zero_offsets1 : (![0, 0, 0] : Fin 3 → Nat) = fun _ => 0 := funext fun a => by fin_cases a <;> rfl

/-- The index maps over the grid: the query block moves with the output block; the key and value blocks
    take the output's batch, all 2048 rows, and its lane block shifted by 8 and by 16 blocks of 128 columns. -/
theorem index_maps1 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = 8 + win1_3.index t (2 : Fin 3)
    ∧ win1_2.index t (0 : Fin 3) = win1_3.index t (0 : Fin 3) ∧ win1_2.index t (1 : Fin 3) = 0
    ∧ win1_2.index t (2 : Fin 3) = 16 + win1_3.index t (2 : Fin 3)
    ∧ win1_3.index t (0 : Fin 3) ≤ 1 ∧ win1_3.index t (1 : Fin 3) ≤ 3 ∧ win1_3.index t (2 : Fin 3) ≤ 7 :=
  (by decide +kernel : ∀ t : Fin grid1.N, _)

/-- Every block of the output array is some point's. -/
theorem index_onto1 : ∀ (q0 : Fin 2) (q1 : Fin 4) (q2 : Fin 8), ∃ t : Fin cfg1.N, win1_3.index t = ![q0.val, q1.val, q2.val] :=
  (by decide +kernel : ∀ (q0 : Fin 2) (q1 : Fin 4) (q2 : Fin 8), ∃ t : Fin grid1.N, win1_3.index t = ![q0.val, q1.val, q2.val])

/-- The query block at a point, element (0, r, l). -/
theorem query_block (c : Dev nD) (t : Fin cfg1.N) (r : Fin 512) (l : Fin 128) (B : Fin 2) (S : Fin 2048) (L : Fin 3072)
    (hB : B.val = win1_0.index t (0 : Fin 3)) (hS : S.val = win1_0.index t (1 : Fin 3) * 512 + r.val)
    (hL : L.val = win1_0.index t (2 : Fin 3) * 128 + l.val) :
    (iblk1 V c 0 t : S1x512x128.Idx → EReal) (ix3 (0 : Fin 1) r l) = (V c main_v6 : S2x2048x3072.Idx → EReal) (ix3 B S L) := by
  unfold iblk1
  rw [View.read_apply]
  show V c main_v6 (((cfg1.win 0).blk t).view.emb (ix3 (0 : Fin 1) r l)) = V c main_v6 (ix3 B S L)
  refine congrArg (V c main_v6) (funext fun a => Fin.ext ?_)
  match a with
  | ⟨0, _⟩ => show win1_0.index t (0 : Fin 3) * 1 + 1 * 0 = B.val; omega
  | ⟨1, _⟩ => show win1_0.index t (1 : Fin 3) * 512 + 1 * r.val = S.val; omega
  | ⟨2, _⟩ => show win1_0.index t (2 : Fin 3) * 128 + 1 * l.val = L.val; omega

/-- The key block at a point, element (0, k, l). -/
theorem key_block (c : Dev nD) (t : Fin cfg1.N) (k : Fin 2048) (l : Fin 128) (B : Fin 2) (L : Fin 3072)
    (hB : B.val = win1_1.index t (0 : Fin 3)) (h1 : win1_1.index t (1 : Fin 3) = 0)
    (hL : L.val = win1_1.index t (2 : Fin 3) * 128 + l.val) :
    (iblk1 V c 1 t : S1x2048x128.Idx → EReal) (ix3 (0 : Fin 1) k l) = (V c main_v6 : S2x2048x3072.Idx → EReal) (ix3 B k L) := by
  unfold iblk1
  rw [View.read_apply]
  show V c main_v6 (((cfg1.win 1).blk t).view.emb (ix3 (0 : Fin 1) k l)) = V c main_v6 (ix3 B k L)
  refine congrArg (V c main_v6) (funext fun a => Fin.ext ?_)
  match a with
  | ⟨0, _⟩ => show win1_1.index t (0 : Fin 3) * 1 + 1 * 0 = B.val; omega
  | ⟨1, _⟩ => show win1_1.index t (1 : Fin 3) * 2048 + 1 * k.val = k.val; omega
  | ⟨2, _⟩ => show win1_1.index t (2 : Fin 3) * 128 + 1 * l.val = L.val; omega

/-- The value block at a point, element (0, k, l). -/
theorem value_block (c : Dev nD) (t : Fin cfg1.N) (k : Fin 2048) (l : Fin 128) (B : Fin 2) (L : Fin 3072)
    (hB : B.val = win1_2.index t (0 : Fin 3)) (h1 : win1_2.index t (1 : Fin 3) = 0)
    (hL : L.val = win1_2.index t (2 : Fin 3) * 128 + l.val) :
    (iblk1 V c 2 t : S1x2048x128.Idx → EReal) (ix3 (0 : Fin 1) k l) = (V c main_v6 : S2x2048x3072.Idx → EReal) (ix3 B k L) := by
  unfold iblk1
  rw [View.read_apply]
  show V c main_v6 (((cfg1.win 2).blk t).view.emb (ix3 (0 : Fin 1) k l)) = V c main_v6 (ix3 B k L)
  refine congrArg (V c main_v6) (funext fun a => Fin.ext ?_)
  match a with
  | ⟨0, _⟩ => show win1_2.index t (0 : Fin 3) * 1 + 1 * 0 = B.val; omega
  | ⟨1, _⟩ => show win1_2.index t (1 : Fin 3) * 2048 + 1 * k.val = k.val; omega
  | ⟨2, _⟩ => show win1_2.index t (2 : Fin 3) * 128 + 1 * l.val = L.val; omega

/-- The region's result as one function of the projected array as it finds it. -/
abbrev result1 (c : Dev nD) : S2x2048x1024.Idx → EReal := attnG (V c main_v6 : S2x2048x3072.Idx → EReal)

/-- One head (at lane offset o within the block) of what point t's body leaves, at row r and lane d, is that
    head of the whole-array function at the element under it. -/
theorem block_head (c : Dev nD) (t : Fin cfg1.N) (o : Nat) (ho : o + 64 ≤ 128) (ho' : o = 0 ∨ o = 64) (r : Fin 512) (d : Fin 64) :
    attnAt (iblk1 V c 0 t : S1x512x128.Idx → EReal) (iblk1 V c 1 t : S1x2048x128.Idx → EReal) (iblk1 V c 2 t : S1x2048x128.Idx → EReal) o ho r d
      = result1 V c (((cfg1.win 3).blk t).view.emb (ix3 (0 : Fin 1) r (laneAt o ho d))) := by
  obtain ⟨e00, e01, e02, e10, e11, e12, e20, e21, e22, b0, b1, b2⟩ := index_maps1 t
  have hr : r.val < 512 := r.isLt
  have hd : d.val < 64 := d.isLt
  have hB : win1_3.index t (0 : Fin 3) < 2 := by omega
  have hS : win1_3.index t (1 : Fin 3) * 512 + r.val < 2048 := by omega
  have hC : win1_3.index t (2 : Fin 3) * 128 + (o + d.val) < 1024 := by omega
  have hemb : ((cfg1.win 3).blk t).view.emb (ix3 (0 : Fin 1) r (laneAt o ho d))
      = ix3 (⟨win1_3.index t (0 : Fin 3), hB⟩ : Fin 2) (⟨win1_3.index t (1 : Fin 3) * 512 + r.val, hS⟩ : Fin 2048)
          (⟨win1_3.index t (2 : Fin 3) * 128 + (o + d.val), hC⟩ : Fin 1024) := by
    funext a
    apply Fin.ext
    match a with
    | ⟨0, _⟩ => show win1_3.index t (0 : Fin 3) * 1 + 1 * 0 = win1_3.index t (0 : Fin 3); omega
    | ⟨1, _⟩ => show win1_3.index t (1 : Fin 3) * 512 + 1 * r.val = win1_3.index t (1 : Fin 3) * 512 + r.val; omega
    | ⟨2, _⟩ => show win1_3.index t (2 : Fin 3) * 128 + 1 * (o + d.val) = win1_3.index t (2 : Fin 3) * 128 + (o + d.val); omega
  rw [hemb]
  show _ = mixG _ _ _ (headOf _) (laneOf _)
  have hh : (headOf (⟨win1_3.index t (2 : Fin 3) * 128 + (o + d.val), hC⟩ : Fin 1024)).val = 2 * win1_3.index t (2 : Fin 3) + o / 64 := by
    show (win1_3.index t (2 : Fin 3) * 128 + (o + d.val)) / 64 = _
    rcases ho' with rfl | rfl <;> omega
  have hl : laneOf (⟨win1_3.index t (2 : Fin 3) * 128 + (o + d.val), hC⟩ : Fin 1024) = d := Fin.ext (by
    show (win1_3.index t (2 : Fin 3) * 128 + (o + d.val)) % 64 = d.val
    rcases ho' with rfl | rfl <;> omega)
  rw [hl]
  have ho64 : 64 * (o / 64) = o := by rcases ho' with rfl | rfl <;> rfl
  refine attnAt_eq_mixG _ _ _ _ o ho _ _ r _ d (fun d' => ?_) (fun k d' => ?_) (fun k => ?_)
  · have hd' : d'.val < 64 := d'.isLt
    exact query_block V c t r _ _ _ _ (by show _ = win1_0.index t (0 : Fin 3); rw [e00])
      (by show _ = win1_0.index t (1 : Fin 3) * 512 + r.val; rw [e01])
      (by show 64 * (headOf _).val + d'.val = win1_0.index t (2 : Fin 3) * 128 + (o + d'.val); rw [hh, e02]; omega)
  · have hd' : d'.val < 64 := d'.isLt
    exact key_block V c t k _ _ _ (by show _ = win1_1.index t (0 : Fin 3); rw [e10]) e11
      (by show 1024 + (64 * (headOf _).val + d'.val) = win1_1.index t (2 : Fin 3) * 128 + (o + d'.val); rw [hh, e12]; omega)
  · exact value_block V c t k _ _ _ (by show _ = win1_2.index t (0 : Fin 3); rw [e20]) e21
      (by show 2048 + (64 * (headOf _).val + d.val) = win1_2.index t (2 : Fin 3) * 128 + (o + d.val); rw [hh, e22]; omega)

/-- WHAT POINT t WRITES BACK is block t of that function. -/
theorem flushed1_eq (c : Dev nD) (t : Fin cfg1.N) :
    (dat1 V c).flushed 3 t = ((cfg1.win 3).blk t).view.read (Elt Ideal) (result1 V c) := by
  show (cfg1.win 3).cut (grid1.coords t) ((dat1 V c).after 3 t) = _
  rw [after1_3]
  unfold out1_3
  rw [View.canon_unit_zero zero_offsets1]
  simp only [View.ld_unit_zero (S := S1x512x128) zero_offsets1, View.ld_unit_zero (S := S1x2048x128) zero_offsets1]
  funext j
  obtain ⟨z, r, l, rfl⟩ : ∃ (z : Fin 1) (r : Fin 512) (l : Fin 128), j = ix3 z r l := ⟨j 0, j 1, j 2, eq_ix3 j⟩
  obtain rfl : z = 0 := Subsingleton.elim _ _
  have hl : l.val < 128 := l.isLt
  show k1_pay1 (F := Ideal) (k1_pay5 (F := Ideal) (iblk1 V c 0 t) (iblk1 V c 1 t) (iblk1 V c 2 t)) (k1_pay6 (F := Ideal) (iblk1 V c 2 t))
      (k1_pay7 (F := Ideal) (iblk1 V c 0 t) (iblk1 V c 1 t)) (ix3 (0 : Fin 1) r l)
      = result1 V c (((cfg1.win 3).blk t).view.emb (ix3 (0 : Fin 1) r l))
  by_cases h64 : l.val < 64
  · obtain ⟨d, rfl⟩ : ∃ d : Fin 64, l = laneAt 0 (by decide) d :=
      ⟨⟨l.val, h64⟩, Fin.ext (by show l.val = 0 + l.val; omega)⟩
    refine (attn_block_head0 _ _ _ r d).trans ?_
    exact block_head V c t 0 (by omega) (Or.inl rfl) r d
  · obtain ⟨d, rfl⟩ : ∃ d : Fin 64, l = laneAt 64 (by decide) d :=
      ⟨⟨l.val - 64, by omega⟩, Fin.ext (by show l.val = 64 + (l.val - 64); omega)⟩
    refine (attn_block_head1 _ _ _ r d).trans ?_
    exact block_head V c t 64 (by omega) (Or.inr rfl) r d

/-- An index of the output array is in point t's block iff each coordinate is in the block's range on its axis. -/
theorem mem_block1 (t : Fin cfg1.N) (i : S2x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v7).slice (win1_3.rect t)).set ↔ _
  rw [View.set_slice_whole, Rect.mem_set_unit]
  exact Iff.rfl

/-- The output's blocks tile its array. -/
theorem cover1 (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := index_onto1 ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_block1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- THE ARRAY after the region: the attended values of the projected array as the region found it. -/
theorem final1 (c : Dev nD) : (dat1 V c).arrAt 3 cfg1.N = result1 V c :=
  (dat1 V c).arrAt_eq_of_cover 3 (result1 V c) (fun t _ => flushed1_eq V c t) cover1

/-! ## The region's value against the specification -/

section Spec

variable (m : (ℓ : Loc nD τ sig) → Buf (Elt Ideal) ℓ) (ρ : Dev nD → PrngReg)
variable (x : Cert.Mha.SX.Idx → EReal) (W : Cert.Mha.SW.Idx → EReal) (bq : Cert.Mha.SB.Idx → EReal)

/-- At region 1's exit its output array holds the attended values of the projected array it found. -/
theorem W4_attn (c : Dev nD) :
    (W4 (F := Ideal) m ρ c (Proc.devRef .tc main_v7) : S2x2048x1024.Idx → EReal)
      = attnG (W3 (F := Ideal) m ρ c (Proc.devRef .tc main_v6) : S2x2048x3072.Idx → EReal) :=
  (W4_out m ρ c).trans (final1 (V3 m ρ) c)

/-- So, when the array it found is the specification's projection, its output is the specification's attended
    value at every index. -/
theorem W4_mix (c : Dev nD)
    (hQ : ∀ (b : Fin 2) (s : Fin 2048) (n : Fin 3072),
      (W3 (F := Ideal) m ρ c (Proc.devRef .tc main_v6) : S2x2048x3072.Idx → EReal) (ix3 b s n) = Cert.Mha.proj x W bq b s n)
    (b : Fin 2) (s : Fin 2048) (cc : Fin 1024) :
    (W4 (F := Ideal) m ρ c (Proc.devRef .tc main_v7) : S2x2048x1024.Idx → EReal) (ix3 b s cc)
      = Cert.Mha.mix x W bq b s (headOf cc) (laneOf cc) := by
  rw [W4_attn, attnG_ix3]
  exact mixG_eq_mix x W bq _ hQ b s (headOf cc) (laneOf cc)

end Spec

end Cert.KernelIdeal.HandValue

end
-- ==== Proof.KI.Host.lean ====
/-
  The host stretches between the regions, read at an index, at the ideal values. The input [2, 2048, 1024] is
  viewed as 4096 rows — row 2048 b + s is (b, s) — and its change of format is the identity on the extended reals,
  as is the two weight matrices'; a bias vector is viewed as one row; each region's [4096, ·] result is viewed back
  as [2, 2048, ·].
-/
import proofs.«154701_j71133248356497_2_alg».proof.Proof.KI.Chain
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

/-- Row 2048 b + s of a [4096, ·] array: position s of batch b. -/
abbrev row (b : Fin 2) (s : Fin 2048) : Fin 4096 := ⟨2048 * b.val + s.val, by omega⟩

variable (m : (ℓ : Loc nD τ sig) → Buf (Elt Ideal) ℓ) (ρ : Dev nD → PrngReg) (c : Dev nD)

/-! ## Before region 0 -/

/-- The left array of the first projection: the input viewed as 4096 rows, its format changed. -/
theorem W1_main_v1 : (W1 m ρ c (Proc.devRef .tc main_v1) : S4096x1024.Idx → EReal)
    = (truncf (F := Ideal) .bf16 (shapeCast S4096x1024 (m ((c : Thread nD τ).loc main_arg0) : FVec Ideal S2x2048x1024 .f32) shapeCasts_S2x2048x1024_S4096x1024) bitsLt_bf16_f32 : FVec Ideal S4096x1024 .bf16) := by
  show StableHlo.after hostOps0 (W0 m ρ c) (Proc.devRef .tc main_v1) = _
  after_results
  rfl

theorem host0_x (b : Fin 2) (s : Fin 2048) (k : Fin 1024) :
    (W1 m ρ c (Proc.devRef .tc main_v1) : S4096x1024.Idx → EReal) (ix2 (row b s) k)
      = (m ((c : Thread nD τ).loc main_arg0) : S2x2048x1024.Idx → EReal) (ix3 b s k) := by
  rw [W1_main_v1]
  refine (truncf_apply (φ := .f32) (ψ := .bf16) _ bitsLt_bf16_f32 (ix2 (row b s) k)).trans ?_
  refine shapeCast_apply _ _ _ _ ?_
  show (S2x2048x1024.rowMajor (ix3 b s k)).val = (S4096x1024.rowMajor (ix2 (row b s) k)).val
  rw [Shape.rowMajor_val_three, Shape.rowMajor_val_two]
  show (b.val * 2048 + s.val) * 1024 + k.val = (2048 * b.val + s.val) * 1024 + k.val
  omega

/-- The projection matrix: its format changed, the identity on the extended reals. -/
theorem host0_w : (W1 m ρ c (Proc.devRef .tc main_v2) : S1024x3072.Idx → EReal) = m ((c : Thread nD τ).loc main_arg1) := by
  show StableHlo.after hostOps0 (W0 m ρ c) (Proc.devRef .tc main_v2) = _
  after_results
  rfl

/-- The output matrix: its format changed, the identity on the extended reals. -/
theorem host0_wo : (W1 m ρ c (Proc.devRef .tc main_v3) : S1024x1024.Idx → EReal) = m ((c : Thread nD τ).loc main_arg3) := by
  show StableHlo.after hostOps0 (W0 m ρ c) (Proc.devRef .tc main_v3) = _
  after_results
  rfl

/-- The projection's bias viewed as one row. -/
theorem W1_main_v4 : (W1 m ρ c (Proc.devRef .tc main_v4) : S1x3072.Idx → EReal)
    = (shapeCast S1x3072 (m ((c : Thread nD τ).loc main_arg2) : FVec Ideal S3072 .f32) shapeCasts_S3072_S1x3072 : FVec Ideal S1x3072 .f32) := by
  show StableHlo.after hostOps0 (W0 m ρ c) (Proc.devRef .tc main_v4) = _
  after_results
  rfl

theorem host0_b (n : Fin 3072) :
    (W1 m ρ c (Proc.devRef .tc main_v4) : S1x3072.Idx → EReal) (ix2 (0 : Fin 1) n)
      = (m ((c : Thread nD τ).loc main_arg2) : S3072.Idx → EReal) (ix1 n) := by
  rw [W1_main_v4]
  refine shapeCast_apply _ _ _ _ ?_
  show (S3072.rowMajor (ix1 n)).val = (S1x3072.rowMajor (ix2 (0 : Fin 1) n)).val
  rw [Shape.rowMajor_val_one, Shape.rowMajor_val_two]
  show n.val = 0 * 3072 + n.val
  omega

/-! ## Between region 0 and region 1 -/

/-- The projected array viewed back as [2, 2048, 3072]. -/
theorem W3_main_v6 : (W3 m ρ c (Proc.devRef .tc main_v6) : S2x2048x3072.Idx → EReal)
    = (shapeCast S2x2048x3072 (W2 m ρ c (Proc.devRef .tc main_v5) : FVec Ideal S4096x3072 .f32) shapeCasts_S4096x3072_S2x2048x3072 : FVec Ideal S2x2048x3072 .f32) := by
  show StableHlo.after hostOps1 (W2 m ρ c) (Proc.devRef .tc main_v6) = _
  after_results
  rfl

theorem host1_q (b : Fin 2) (s : Fin 2048) (n : Fin 3072) :
    (W3 m ρ c (Proc.devRef .tc main_v6) : S2x2048x3072.Idx → EReal) (ix3 b s n)
      = (W2 m ρ c (Proc.devRef .tc main_v5) : S4096x3072.Idx → EReal) (ix2 (row b s) n) := by
  rw [W3_main_v6]
  refine shapeCast_apply _ _ _ _ ?_
  show (S4096x3072.rowMajor (ix2 (row b s) n)).val = (S2x2048x3072.rowMajor (ix3 b s n)).val
  rw [Shape.rowMajor_val_three, Shape.rowMajor_val_two]
  show (2048 * b.val + s.val) * 3072 + n.val = (b.val * 2048 + s.val) * 3072 + n.val
  omega

/-! ## Between region 1 and region 2 -/

/-- The attended values viewed as 4096 rows. -/
theorem W5_main_v8 : (W5 m ρ c (Proc.devRef .tc main_v8) : S4096x1024.Idx → EReal)
    = (shapeCast S4096x1024 (W4 m ρ c (Proc.devRef .tc main_v7) : FVec Ideal S2x2048x1024 .bf16) shapeCasts_S2x2048x1024_S4096x1024 : FVec Ideal S4096x1024 .bf16) := by
  show StableHlo.after hostOps2 (W4 m ρ c) (Proc.devRef .tc main_v8) = _
  after_results
  rfl

theorem host2_a (b : Fin 2) (s : Fin 2048) (j : Fin 1024) :
    (W5 m ρ c (Proc.devRef .tc main_v8) : S4096x1024.Idx → EReal) (ix2 (row b s) j)
      = (W4 m ρ c (Proc.devRef .tc main_v7) : S2x2048x1024.Idx → EReal) (ix3 b s j) := by
  rw [W5_main_v8]
  refine shapeCast_apply _ _ _ _ ?_
  show (S2x2048x1024.rowMajor (ix3 b s j)).val = (S4096x1024.rowMajor (ix2 (row b s) j)).val
  rw [Shape.rowMajor_val_three, Shape.rowMajor_val_two]
  show (b.val * 2048 + s.val) * 1024 + j.val = (2048 * b.val + s.val) * 1024 + j.val
  omega

/-- The output bias viewed as one row. -/
theorem W5_main_v9 : (W5 m ρ c (Proc.devRef .tc main_v9) : S1x1024.Idx → EReal)
    = (shapeCast S1x1024 (W4 m ρ c (Proc.devRef .tc main_arg4) : FVec Ideal S1024 .f32) shapeCasts_S1024_S1x1024 : FVec Ideal S1x1024 .f32) := by
  show StableHlo.after hostOps2 (W4 m ρ c) (Proc.devRef .tc main_v9) = _
  after_results
  rfl

theorem host2_b (n : Fin 1024) :
    (W5 m ρ c (Proc.devRef .tc main_v9) : S1x1024.Idx → EReal) (ix2 (0 : Fin 1) n)
      = (W4 m ρ c (Proc.devRef .tc main_arg4) : S1024.Idx → EReal) (ix1 n) := by
  rw [W5_main_v9]
  refine shapeCast_apply _ _ _ _ ?_
  show (S1024.rowMajor (ix1 n)).val = (S1x1024.rowMajor (ix2 (0 : Fin 1) n)).val
  rw [Shape.rowMajor_val_one, Shape.rowMajor_val_two]
  show n.val = 0 * 1024 + n.val
  omega

/-! ## After region 2 -/

/-- The output projection viewed back as [2, 2048, 1024]: the program's result. -/
theorem W7_main_v11 : (W7 m ρ c (Proc.devRef .tc main_v11) : S2x2048x1024.Idx → EReal)
    = (shapeCast S2x2048x1024 (W6 m ρ c (Proc.devRef .tc main_v10) : FVec Ideal S4096x1024 .f32) shapeCasts_S4096x1024_S2x2048x1024 : FVec Ideal S2x2048x1024 .f32) := by
  show StableHlo.after hostOps3 (W6 m ρ c) (Proc.devRef .tc main_v11) = _
  after_results
  rfl

theorem host3_o (b : Fin 2) (s : Fin 2048) (o : Fin 1024) :
    (W7 m ρ c (Proc.devRef .tc main_v11) : S2x2048x1024.Idx → EReal) (ix3 b s o)
      = (W6 m ρ c (Proc.devRef .tc main_v10) : S4096x1024.Idx → EReal) (ix2 (row b s) o) := by
  rw [W7_main_v11]
  refine shapeCast_apply _ _ _ _ ?_
  show (S4096x1024.rowMajor (ix2 (row b s) o)).val = (S2x2048x1024.rowMajor (ix3 b s o)).val
  rw [Shape.rowMajor_val_three, Shape.rowMajor_val_two]
  show (2048 * b.val + s.val) * 1024 + o.val = (b.val * 2048 + s.val) * 1024 + o.val
  omega

end Cert.KernelIdeal.HandValue

end
-- ==== Proof.KI.KernelValue.lean ====
/-
  The value the kernel program returns with, on the extended reals, as the specification of its five arguments.

  Reading the buffer contents back through @main's seven segments: the returned array is the [4096, 1024] result of
  the last region reshaped to [2, 2048, 1024] (row 2048 b + s is row s of batch b); that result is the attended
  values times the output matrix plus the output bias; the attended values are the per-head softmax mixes of the
  projected array the middle region read; and the projected array is the reshaped input times the projection
  matrix plus its bias. The changes of float format between the segments are the identity on the extended reals, and
  the output matrix and output bias reach the last region as launched because no segment in between writes them.
  Index by index this is the specification's `outAt`.
-/
import proofs.«154701_j71133248356497_2_alg».proof.Proof.KI.Args
import proofs.«154701_j71133248356497_2_alg».proof.Proof.KI.Final0
import proofs.«154701_j71133248356497_2_alg».proof.Proof.KI.Final2
import proofs.«154701_j71133248356497_2_alg».proof.Proof.KI.Region1
import proofs.«154701_j71133248356497_2_alg».proof.Proof.KI.AttnSpec
import proofs.«154701_j71133248356497_2_alg».proof.Proof.KI.Host
import proofs.«154701_j71133248356497_2_alg».proof.Proof.Spec

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Mha (headOf laneOf)

variable (m : (ℓ : Loc nD τ sig) → Buf (Elt Ideal) ℓ) (ρ : Dev nD → PrngReg)

/-! ## Buffers no segment in between writes -/

/-- The output matrix, converted in the first host stretch, is still there when the last region starts. -/
theorem W5_main_v3 (c : Dev nD) : W5 m ρ c (Proc.devRef .tc main_v3) = W1 m ρ c (Proc.devRef .tc main_v3) :=
  calc W5 m ρ c (Proc.devRef .tc main_v3)
    _ = W4 m ρ c (Proc.devRef .tc main_v3) := StableHlo.after_of_writes_sub hostOps2 _ hostOps2_writes (by decide)
    _ = W3 m ρ c (Proc.devRef .tc main_v3) := W4_of_ne m ρ c main_v3 (by decide)
    _ = W2 m ρ c (Proc.devRef .tc main_v3) := StableHlo.after_of_writes_sub hostOps1 _ hostOps1_writes (by decide)
    _ = W1 m ρ c (Proc.devRef .tc main_v3) := W2_of_ne m ρ c main_v3 (by decide)

/-- The output bias argument is as launched when the third host stretch reshapes it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The three stages, index by index -/

/-- The array the attention region reads is the specification's projection: region 0 leaves the [4096, 3072]
    product-plus-bias of the reshaped input, and row 2048 b + s of it is row s of batch b. -/
theorem stage_proj (c : Dev nD) (b : Fin 2) (s : Fin 2048) (n : Fin 3072) :
    (W3 m ρ c (Proc.devRef .tc main_v6) : S2x2048x3072.Idx → EReal) (ix3 b s n)
      = Cert.Mha.proj (m ((c.tc : Thread nD τ).loc main_arg0)) (m ((c.tc : Thread nD τ).loc main_arg1))
          (m ((c.tc : Thread nD τ).loc main_arg2)) b s n := by
  have h2 : (W2 m ρ c (Proc.devRef .tc main_v5) : S4096x3072.Idx → EReal)
      = projG (W1 m ρ c (Proc.devRef .tc main_v1) : S4096x1024.Idx → EReal)
          (W1 m ρ c (Proc.devRef .tc main_v2) : S1024x3072.Idx → EReal) (W1 m ρ c (Proc.devRef .tc main_v4) : S1x3072.Idx → EReal) :=
    (W2_arr m ρ c 3).trans (final0 (V1 m ρ) c)
  rw [host1_q, h2]
  show projAt _ _ _ (row b s) n = _
  unfold projAt Cert.Mha.proj
  congr 1
  · refine Finset.sum_congr rfl fun k _ => ?_
    rw [host0_x, host0_w]
  · exact host0_b m ρ c n

/-- The array the output projection reads is the specification's attended values, the heads merged along the columns. -/
theorem stage_attn (c : Dev nD) (b : Fin 2) (s : Fin 2048) (j : Fin 1024) :
    (W5 m ρ c (Proc.devRef .tc main_v8) : S4096x1024.Idx → EReal) (ix2 (row b s) j)
      = Cert.Mha.mix (m ((c.tc : Thread nD τ).loc main_arg0)) (m ((c.tc : Thread nD τ).loc main_arg1))
          (m ((c.tc : Thread nD τ).loc main_arg2)) b s (headOf j) (laneOf j) := by
  have h4 : (W4 m ρ c (Proc.devRef .tc main_v7) : S2x2048x1024.Idx → EReal)
      = attnG (W3 m ρ c (Proc.devRef .tc main_v6) : S2x2048x3072.Idx → EReal) :=
    (W4_out m ρ c).trans (final1 (V3 m ρ) c)
  rw [host2_a, h4]
  show attnG _ (ix3 b s j) = _
  rw [attnG_ix3]
  exact mixG_eq_mix _ _ _ _ (fun b s n => stage_proj m ρ c b s n) b s (headOf j) (laneOf j)

/-! ## The result -/

/-- What the program returns with is the specification of its five arguments. -/
theorem kernel_value (c : Dev nD) :
    W7 (F := Ideal) m ρ c (Proc.devRef .tc main_v11)
      = Cert.Mha.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  have h : ∀ (b : Fin 2) (s : Fin 2048) (o : Fin 1024),
      (W7 m ρ c (Proc.devRef .tc main_v11) : S2x2048x1024.Idx → EReal) (ix3 b s o)
        = Cert.Mha.outAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b s o := by
    intro b s o
    have h6 : (W6 m ρ c (Proc.devRef .tc main_v10) : S4096x1024.Idx → EReal)
        = projG (W5 m ρ c (Proc.devRef .tc main_v8) : S4096x1024.Idx → EReal)
            (W5 m ρ c (Proc.devRef .tc main_v3) : S1024x1024.Idx → EReal) (W5 m ρ c (Proc.devRef .tc main_v9) : S1x1024.Idx → EReal) :=
      (W6_arr m ρ c 3).trans (final2 (V5 m ρ) c)
    rw [host3_o, h6]
    show projAt _ _ _ (row b s) o = _
    unfold projAt Cert.Mha.outAt
    congr 1
    · refine Finset.sum_congr rfl fun j _ => ?_
      rw [stage_attn, W5_main_v3, host0_wo]
    · rw [host2_b, W4_main_arg4]
  funext i
  rw [eq_ix3 i]
  exact h (i 0) (i 1) (i 2)

end Cert.KernelIdeal.HandValue

end
-- ==== Proof.RefStages.lean ====
/-
  The reference program's stages, one at a time, read at COORDINATES (batch b, head h, query/key positions q k, lane d,
  sequence position s, hidden column c): each statement reads one stage of the generated per-operation reading of the
  reference at an index built from literal-size coordinates, in terms of the previous stages at such indices. The
  layout operations (slice, reshape to heads, transpose) become arithmetic on the column: head h, lane d is column
  h * 64 + d of the projected array, the keys 1024 columns and the values 2048 columns further on.
-/
import proofs.«154701_j71133248356497_2_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- Column h * 64 + d of the 1024 hidden columns: head h, lane d. -/
abbrev col (h : Fin 16) (d : Fin 64) : Fin 1024 := ⟨h.val * 64 + d.val, by have := h.isLt; have := d.isLt; omega⟩
/-- Column off + (h * 64 + d) of the 3072 projected columns (off = 0 queries, 1024 keys, 2048 values). -/
abbrev col3 (off : Nat) (hoff : off + 1024 ≤ 3072) (h : Fin 16) (d : Fin 64) : Fin 3072 :=
  ⟨off + (h.val * 64 + d.val), by have := h.isLt; have := d.isLt; omega⟩

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The projection: row (b, s) of x times column j of the weights, plus the bias at j. -/
theorem v3_at (b : Fin 2) (s : Fin 2048) (j : Fin 3072) :
    val_main_v3 (F := Ideal) x0 x1 x2 (ix3 b s j) = (∑ k : Fin 1024, x0 (ix3 b s k) * x1 (ix2 k j)) + x2 (ix1 j) := by
  rw [val_main_v3_apply, val_main_v0_apply, val_main_v2_apply, val_main_v1_apply, Ideal.addf_def]
  have el : ∀ k : Fin 1024, lidx_main_v0 (ix3 b s j) k = ix3 b s k := fun k => funext fun a => Fin.ext (by
    match a with | ⟨0, _⟩ => rfl | ⟨1, _⟩ => rfl | ⟨2, _⟩ => rfl)
  have er : ∀ k : Fin 1024, ridx_main_v0 (ix3 b s j) k = ix2 k j := fun k => funext fun a => Fin.ext (by
    match a with | ⟨0, _⟩ => rfl | ⟨1, _⟩ => rfl)
  have eb : idx_main_v1 (idx_main_v2 (ix3 b s j)) = ix1 j := funext fun a => Fin.ext (by
    match a with | ⟨0, _⟩ => rfl)
  simp only [el, er, eb]

/-- The queries by heads: (b, h, s, d) is the projection at column h * 64 + d. -/
theorem v8_at (b : Fin 2) (h : Fin 16) (s : Fin 2048) (d : Fin 64) :
    val_main_v8 (F := Ideal) x0 x1 x2 (ix4 b h s d) = val_main_v3 (F := Ideal) x0 x1 x2 (ix3 b s (col3 0 (by omega) h d)) := by
  rw [val_main_v8_apply, val_main_v7_apply, val_main_v4_apply]
  refine congrArg _ (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 0 + (h.val * 64 + d.val); omega

/-- The keys by heads: 1024 columns further on. -/
theorem v10_at (b : Fin 2) (h : Fin 16) (s : Fin 2048) (d : Fin 64) :
    val_main_v10 (F := Ideal) x0 x1 x2 (ix4 b h s d) = val_main_v3 (F := Ideal) x0 x1 x2 (ix3 b s (col3 1024 (by omega) h d)) := by
  rw [val_main_v10_apply, val_main_v9_apply, val_main_v5_apply]
  refine congrArg _ (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 1024 + (((b.val * 2048 + s.val) * 16 + h.val) * 64 + d.val) % 1024 = 1024 + (h.val * 64 + d.val); omega

/-- The values by heads: 2048 columns further on. -/
theorem v12_at (b : Fin 2) (h : Fin 16) (s : Fin 2048) (d : Fin 64) :
    val_main_v12 (F := Ideal) x0 x1 x2 (ix4 b h s d) = val_main_v3 (F := Ideal) x0 x1 x2 (ix3 b s (col3 2048 (by omega) h d)) := by
  rw [val_main_v12_apply, val_main_v11_apply, val_main_v6_apply]
  refine congrArg _ (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 2048 + (((b.val * 2048 + s.val) * 16 + h.val) * 64 + d.val) % 1024 = 2048 + (h.val * 64 + d.val); omega

/-- The raw scores: over the 64 lanes, query q's lane times key k's lane. -/
theorem v13_at (b : Fin 2) (h : Fin 16) (q k : Fin 2048) :
    val_main_v13 (F := Ideal) x0 x1 x2 (ix4 b h q k)
      = ∑ d : Fin 64, val_main_v8 (F := Ideal) x0 x1 x2 (ix4 b h q d) * val_main_v10 (F := Ideal) x0 x1 x2 (ix4 b h k d) := by
  rw [val_main_v13_apply]
  have el : ∀ d : Fin 64, lidx_main_v13 (ix4 b h q k) d = ix4 b h q d := fun d => funext fun a => Fin.ext (by
    match a with | ⟨0, _⟩ => rfl | ⟨1, _⟩ => rfl | ⟨2, _⟩ => rfl | ⟨3, _⟩ => rfl)
  have er : ∀ d : Fin 64, ridx_main_v13 (ix4 b h q k) d = ix4 b h k d := fun d => funext fun a => Fin.ext (by
    match a with | ⟨0, _⟩ => rfl | ⟨1, _⟩ => rfl | ⟨2, _⟩ => rfl | ⟨3, _⟩ => rfl)
  simp only [el, er]

/-- The scores: the raw score divided by the square root of the word 64.0. -/
theorem v16_at (b : Fin 2) (h : Fin 16) (q k : Fin 2048) :
    val_main_v16 (F := Ideal) x0 x1 x2 (ix4 b h q k)
      = Ideal.div (val_main_v13 (F := Ideal) x0 x1 x2 (ix4 b h q k)) (Ideal.sqrt (Ideal.ofBits .f32 0x42800000#32)) := by
  rw [val_main_v16_apply, val_main_v15_apply, val_main_v14_apply, val_main_cst_apply, Ideal.hostDivf_def,
    Ideal.hostUnary_sqrt_def, Ideal.ofBits_def]

/-! ## The softmax: row maximum, exponentials, row sum, quotient -/

/-- Result index (b, h, q) of the reduction over the key axis, with key k put back, is (b, h, q, k). -/
theorem lift_key (hR : S2x16x2048x2048.Reduces [3] S2x16x2048) (b : Fin 2) (h : Fin 16) (q : Fin 2048)
    (k : Fin (S2x16x2048x2048.size 3)) : hR.lift (ix3 b h q) k = ix4 b h q (⟨k.val, k.isLt⟩ : Fin 2048) := by
  funext c; apply Fin.ext
  fin_cases c <;> rfl

/-- A maximum-reduce over the key axis, at (b, h, q): the fold of max over the 2048 keys from the initial value's element. -/
theorem hostReduce_max_keys (y : FVec Ideal S2x16x2048x2048 .f32) (init : FVec Ideal S_ .f32)
    (h' : S2x16x2048x2048.ReducesTo [3] S2x16x2048) (hR : S2x16x2048x2048.Reduces [3] S2x16x2048) (hu : 0 < S_.numel)
    (b : Fin 2) (h : Fin 16) (q : Fin 2048) :
    Host.reduce FloatOps.maximumf y init h' hu (ix3 b h q)
      = (Finset.univ : Finset (Fin 2048)).fold max (init (Shape.Idx.first hu)) (fun k => y (ix4 b h q k)) := by
  rw [Host.reduce_eq_fold_single FloatOps.maximumf y _ h' hR hu]
  have hf : (y ∘ hR.lift (ix3 b h q)) = fun k : Fin 2048 => y (ix4 b h q k) :=
    funext fun k => congrArg y (lift_key hR b h q k)
  exact congrArg (fun f => Finset.fold max (init (Shape.Idx.first hu)) f (Finset.univ : Finset (Fin 2048))) hf

/-- The row maximum: the fold of max over the 2048 keys, from the word of -inf. -/
theorem v17_at (b : Fin 2) (h : Fin 16) (q : Fin 2048) :
    val_main_v17 (F := Ideal) x0 x1 x2 (ix3 b h q)
      = (Finset.univ : Finset (Fin 2048)).fold max (Ideal.ofBits .f32 0xFF800000#32)
          (fun k => val_main_v16 (F := Ideal) x0 x1 x2 (ix4 b h q k)) := by
  unfold val_main_v17
  generalize val_main_v16 (F := Ideal) x0 x1 x2 = y
  exact hostReduce_max_keys y (val_main_cst_0 (F := Ideal)) _ (by decide) h_S_ b h q

/-- The guarded row maximum: the max of the word of -inf and the row maximum. -/
theorem v19_at (b : Fin 2) (h : Fin 16) (q : Fin 2048) :
    val_main_v19 (F := Ideal) x0 x1 x2 (ix3 b h q)
      = max (Ideal.ofBits .f32 0xFF800000#32) (val_main_v17 (F := Ideal) x0 x1 x2 (ix3 b h q)) := by
  rw [val_main_v19_apply, val_main_v18_apply, val_main_cst_1_apply, Ideal.maximumf_def, Ideal.ofBits_def]

/-- The row maximum broadcast along the keys. -/
theorem v21_at (b : Fin 2) (h : Fin 16) (q k : Fin 2048) :
    val_main_v21 (F := Ideal) x0 x1 x2 (ix4 b h q k) = val_main_v19 (F := Ideal) x0 x1 x2 (ix3 b h q) := by
  rw [val_main_v21_apply, val_main_v20_apply]
  exact congrArg _ (funext fun a => Fin.ext (by match a with | ⟨0, _⟩ => rfl | ⟨1, _⟩ => rfl | ⟨2, _⟩ => rfl))

/-- The exponential of the score less the row maximum. -/
theorem v23_at (b : Fin 2) (h : Fin 16) (q k : Fin 2048) :
    val_main_v23 (F := Ideal) x0 x1 x2 (ix4 b h q k)
      = Ideal.exp (val_main_v16 (F := Ideal) x0 x1 x2 (ix4 b h q k) - val_main_v19 (F := Ideal) x0 x1 x2 (ix3 b h q)) := by
  rw [val_main_v23_apply, val_main_v22_apply, v21_at, Ideal.hostUnary_exp_def, Ideal.subf_def]

/-- The row sum: the zero word plus the sum of the exponentials over the 2048 keys. -/
theorem v24_at (b : Fin 2) (h : Fin 16) (q : Fin 2048) :
    val_main_v24 (F := Ideal) x0 x1 x2 (ix3 b h q)
      = Ideal.ofBits .f32 0x00000000#32 + ∑ k : Fin 2048, val_main_v23 (F := Ideal) x0 x1 x2 (ix4 b h q k) := by
  rw [val_main_v24_apply, val_main_cst_2_apply, Ideal.ofBits_def]
  have e : ∀ k : Fin 2048, idx_main_v24 (ix3 b h q) k = ix4 b h q k := fun k => funext fun a => Fin.ext (by
    match a with | ⟨0, _⟩ => rfl | ⟨1, _⟩ => rfl | ⟨2, _⟩ => rfl | ⟨3, _⟩ => rfl)
  simp only [e]

/-- The probabilities: the exponential divided by the row sum. -/
theorem v27_at (b : Fin 2) (h : Fin 16) (q k : Fin 2048) :
    val_main_v27 (F := Ideal) x0 x1 x2 (ix4 b h q k)
      = Ideal.div (val_main_v23 (F := Ideal) x0 x1 x2 (ix4 b h q k)) (val_main_v24 (F := Ideal) x0 x1 x2 (ix3 b h q)) := by
  rw [val_main_v27_apply, val_main_v26_apply, val_main_v25_apply, Ideal.hostDivf_def]
  refine congrArg (Ideal.div _) (congrArg _ (funext fun a => Fin.ext ?_))
  match a with | ⟨0, _⟩ => rfl | ⟨1, _⟩ => rfl | ⟨2, _⟩ => rfl

/-! ## The weighted values and the output projection -/

/-- The weighted values, laid out (b, h, d, q): over the 2048 keys, value k's lane d times the probability of k. -/
theorem v28_at (b : Fin 2) (h : Fin 16) (d : Fin 64) (q : Fin 2048) :
    val_main_v28 (F := Ideal) x0 x1 x2 (ix4 b h d q)
      = ∑ k : Fin 2048, val_main_v12 (F := Ideal) x0 x1 x2 (ix4 b h k d) * val_main_v27 (F := Ideal) x0 x1 x2 (ix4 b h q k) := by
  rw [val_main_v28_apply]
  have el : ∀ k : Fin 2048, lidx_main_v28 (ix4 b h d q) k = ix4 b h k d := fun k => funext fun a => Fin.ext (by
    match a with | ⟨0, _⟩ => rfl | ⟨1, _⟩ => rfl | ⟨2, _⟩ => rfl | ⟨3, _⟩ => rfl)
  have er : ∀ k : Fin 2048, ridx_main_v28 (ix4 b h d q) k = ix4 b h q k := fun k => funext fun a => Fin.ext (by
    match a with | ⟨0, _⟩ => rfl | ⟨1, _⟩ => rfl | ⟨2, _⟩ => rfl | ⟨3, _⟩ => rfl)
  simp only [el, er]

/-- The heads merged back: hidden column c of row (b, s) is head c / 64, lane c % 64. -/
theorem v30_at (b : Fin 2) (s : Fin 2048) (c : Fin 1024) :
    val_main_v30 (F := Ideal) x0 x1 x2 (ix3 b s c)
      = val_main_v28 (F := Ideal) x0 x1 x2 (ix4 b (⟨c.val / 64, by have := c.isLt; omega⟩ : Fin 16)
          (⟨c.val % 64, by omega⟩ : Fin 64) s) := by
  rw [val_main_v30_apply, val_main_v29_apply]
  refine congrArg _ (funext fun a => Fin.ext ?_)
  have hb := b.isLt; have hs := s.isLt; have hc := c.isLt
  match a with
  | ⟨0, _⟩ => show ((b.val * 2048 + s.val) * 1024 + c.val) / 2097152 = b.val; omega
  | ⟨1, _⟩ => show ((b.val * 2048 + s.val) * 1024 + c.val) / 64 % 16 = c.val / 64; omega
  | ⟨2, _⟩ => show ((b.val * 2048 + s.val) * 1024 + c.val) % 64 = c.val % 64; omega
  | ⟨3, _⟩ => show ((b.val * 2048 + s.val) * 1024 + c.val) / 1024 % 2048 = s.val; omega

/-- The output projection: row (b, s) of the merged heads times column o of the output weights. -/
theorem v31_at (b : Fin 2) (s : Fin 2048) (o : Fin 1024) :
    val_main_v31 (F := Ideal) x0 x1 x2 x3 (ix3 b s o)
      = ∑ c : Fin 1024, val_main_v30 (F := Ideal) x0 x1 x2 (ix3 b s c) * x3 (ix2 c o) := by
  rw [val_main_v31_apply]
  have el : ∀ c : Fin 1024, lidx_main_v31 (ix3 b s o) c = ix3 b s c := fun c => funext fun a => Fin.ext (by
    match a with | ⟨0, _⟩ => rfl | ⟨1, _⟩ => rfl | ⟨2, _⟩ => rfl)
  have er : ∀ c : Fin 1024, ridx_main_v31 (ix3 b s o) c = ix2 c o := fun c => funext fun a => Fin.ext (by
    match a with | ⟨0, _⟩ => rfl | ⟨1, _⟩ => rfl)
  simp only [el, er]

/-- The result: the output projection plus the output bias at o. -/
theorem v34_at (b : Fin 2) (s : Fin 2048) (o : Fin 1024) :
    val_main_v34 (F := Ideal) x0 x1 x2 x3 x4 (ix3 b s o)
      = val_main_v31 (F := Ideal) x0 x1 x2 x3 (ix3 b s o) + x4 (ix1 o) := by
  rw [val_main_v34_apply, val_main_v33_apply, val_main_v32_apply, Ideal.addf_def]
  exact congrArg (_ + x4 ·) (funext fun a => Fin.ext (by match a with | ⟨0, _⟩ => rfl))

end Cert.ReferenceIdeal.RefValue

end
-- ==== Proof.RefSpec.lean ====
/-
  The reference computes the specification: stage by stage, each reading of the reference at coordinates
  (the stage lemmas) is the specification's stage of the same name — the projection, the scores, the guarded row
  maximum, the exponentials, their row sum (the reference adds it to the zero word, which is the extended real 0), the
  probabilities, the weighted values — and the result array is multi-head attention's.
-/
import proofs.«154701_j71133248356497_2_alg».proof.Proof.RefStages
import proofs.«154701_j71133248356497_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The columns: head h, lane d is column 64 h + d of each of the three parts -/

theorem col_q (h : Fin 16) (d : Fin 64) : col3 0 (by omega) h d = Cert.Mha.qcol h d := Fin.ext (by
  show 0 + (h.val * 64 + d.val) = 64 * h.val + d.val; omega)
theorem col_k (h : Fin 16) (d : Fin 64) : col3 1024 (by omega) h d = Cert.Mha.kcol h d := Fin.ext (by
  show 1024 + (h.val * 64 + d.val) = 1024 + (64 * h.val + d.val); omega)
theorem col_v (h : Fin 16) (d : Fin 64) : col3 2048 (by omega) h d = Cert.Mha.vcol h d := Fin.ext (by
  show 2048 + (h.val * 64 + d.val) = 2048 + (64 * h.val + d.val); omega)

/-! ## Stage by stage, the reference is the specification -/

/-- The projection. -/
theorem proj_eq (b : Fin 2) (s : Fin 2048) (j : Fin 3072) :
    val_main_v3 (F := Ideal) x0 x1 x2 (ix3 b s j) = Cert.Mha.proj x0 x1 x2 b s j := v3_at x0 x1 x2 b s j

/-- The scores. -/
theorem score_eq (b : Fin 2) (h : Fin 16) (q k : Fin 2048) :
    val_main_v16 (F := Ideal) x0 x1 x2 (ix4 b h q k) = Cert.Mha.score x0 x1 x2 b h q k := by
  rw [v16_at, v13_at]
  simp only [v8_at, v10_at, proj_eq, col_q, col_k]
  rfl

/-- The guarded row maximum. -/
theorem top_eq (b : Fin 2) (h : Fin 16) (q : Fin 2048) :
    val_main_v19 (F := Ideal) x0 x1 x2 (ix3 b h q) = Cert.Mha.top x0 x1 x2 b h q := by
  rw [v19_at, v17_at]
  simp only [score_eq]
  rfl

/-- The exponentials. -/
theorem weight_eq (b : Fin 2) (h : Fin 16) (q k : Fin 2048) :
    val_main_v23 (F := Ideal) x0 x1 x2 (ix4 b h q k) = Cert.Mha.weight x0 x1 x2 b h q k := by
  rw [v23_at, score_eq, top_eq]
  rfl

/-- The row sum: the zero word is the extended real 0. -/
theorem mass_eq (b : Fin 2) (h : Fin 16) (q : Fin 2048) :
    val_main_v24 (F := Ideal) x0 x1 x2 (ix3 b h q) = Cert.Mha.mass x0 x1 x2 b h q := by
  rw [v24_at, Ideal.ofBits_zero_f32, zero_add]
  simp only [weight_eq]
  rfl

/-- The probabilities. -/
theorem share_eq (b : Fin 2) (h : Fin 16) (q k : Fin 2048) :
    val_main_v27 (F := Ideal) x0 x1 x2 (ix4 b h q k) = Cert.Mha.share x0 x1 x2 b h q k := by
  rw [v27_at, weight_eq, mass_eq]
  rfl

/-- The weighted values. -/
theorem mix_eq (b : Fin 2) (h : Fin 16) (d : Fin 64) (q : Fin 2048) :
    val_main_v28 (F := Ideal) x0 x1 x2 (ix4 b h d q) = Cert.Mha.mix x0 x1 x2 b q h d := by
  rw [v28_at]
  simp only [v12_at, proj_eq, col_v, share_eq]
  rfl

/-- THE REFERENCE IS THE SPECIFICATION: the reference's result, as a function of its five arguments, is multi-head
    attention's result array. -/
theorem ref_eq (x0 : (⟨S2x2048x1024, .f32⟩ : BufTy).Contents (Elt Ideal)) (x1 : (⟨S1024x3072, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    Cert.ReferenceIdeal.Read.val_main_v34 (F := Ideal) x0 x1 x2 x3 x4 = Cert.Mha.out x0 x1 x2 x3 x4 := by
  funext i
  obtain ⟨b, s, o, rfl⟩ : ∃ (b : Fin 2) (s : Fin 2048) (o : Fin 1024), i = ix3 b s o := ⟨i 0, i 1, i 2, eq_ix3 i⟩
  rw [Cert.Mha.out_ix3, v34_at, v31_at]
  simp only [v30_at, mix_eq]
  rfl

end Cert.ReferenceIdeal.RefValue

end
-- ==== Proof.RefClaims.lean ====
/-
  The reference's two claims: its frame (every weakly fair execution terminates without a fault and leaves the five
  arguments unchanged) and its value (the result array ends at multi-head attention of the five arguments), the latter
  also from a memory that agrees on the arguments with another program's.
-/
import proofs.«154701_j71133248356497_2_alg».proof.Defs
import proofs.«154701_j71133248356497_2_alg».proof.Proof.Gen.ReferenceIdeal
import proofs.«154701_j71133248356497_2_alg».proof.Proof.Gen.ReferenceIdeal.Read
import proofs.«154701_j71133248356497_2_alg».proof.Proof.Gen.Pre_finite_inputs
import proofs.«154701_j71133248356497_2_alg».proof.Proof.RefSpec

noncomputable section

namespace Cert.Proof.RefClaims

open Idealize.ShloMosaic Idealize.ShloMosaic.TcCoe Idealize.SL.Sem

/-- The reference's frame: its generated run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

open Cert.ReferenceIdeal in
/-- The reference's run with its result NAMED: multi-head attention of the five arguments as the run found them. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread nD τ).loc main_v34) = Cert.Mha.out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run Cert.ReferenceIdeal.defs _ _).mono
    (fun _ h c => ⟨(h c).1.trans ((Cert.ReferenceIdeal.Read.val_main_v34_eq m' c).trans (Cert.ReferenceIdeal.RefValue.ref_eq _ _ _ _ _)), (h c).2⟩)
    (Cert.ReferenceIdeal.Value.run (F := Ideal) m' ρ')

/-- The reference's conjunct of the algebraic claim: from a memory agreeing with the kernel's on the five arguments, the
    reference ends at multi-head attention of the KERNEL's arguments, its own arguments unchanged. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v34)
        = Cert.Mha.out (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (by
        rw [(hagree c).1, (hagree c).2.1, (hagree c).2.2.1, (hagree c).2.2.2.1, (hagree c).2.2.2.2]), (h c).2⟩)
    (ref_run m' ρ')

end Cert.Proof.RefClaims

end
-- ==== Proof.lean ====
/-
  The certificate of a multi-head attention kernel against its plain reference.

  The kernel computes attention in three launches — the fused query/key/value projection, the attention of each pair of
  heads read straight out of the projected array, and the output projection — with reshapes between them; the
  reference computes the same with whole-array operations. Read on the extended reals both are ONE function of the five
  argument arrays (the specification): projection, scaled scores, softmax over the keys, the attended values, output
  projection. The only place the two spellings differ is the scaling of the scores: the kernel multiplies each query
  lane by 1/8 before the product, the reference divides the product by the square root of 64; a nonnegative real
  factor distributes over a finite sum of extended reals, so the two agree at every input and the precondition is
  never opened.

  The frames: each kernel program is seven segments, four stretches of host operations and the three launches; its run
  ends with every buffer at the fold of the segments' effects, and no segment writes an argument. The reference's run is
  the composition of its host operations.
-/
import proofs.«154701_j71133248356497_2_alg».proof.Defs
import proofs.«154701_j71133248356497_2_alg».proof.Proof.Gen.Kernel
import proofs.«154701_j71133248356497_2_alg».proof.Proof.Gen.KernelIdeal
import proofs.«154701_j71133248356497_2_alg».proof.Proof.Gen.ReferenceIdeal
import proofs.«154701_j71133248356497_2_alg».proof.Proof.Gen.Pre_finite_inputs
import proofs.«154701_j71133248356497_2_alg».proof.Proof.Frames
import proofs.«154701_j71133248356497_2_alg».proof.Proof.KI.KernelValue
import proofs.«154701_j71133248356497_2_alg».proof.Proof.RefClaims

noncomputable section

namespace Cert.Proof

open Idealize.ShloMosaic Idealize.ShloMosaic.TcCoe Idealize.SL.Sem

/-- From memories that agree on the arguments both programs end with the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Mha.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_,
    Cert.Proof.RefClaims.ref_run_agree m m' ρ' hagree⟩
  exact (θ_run Cert.KernelIdeal.defs _ _).mono (fun r h c =>
    ⟨(h c _ (Cert.KernelIdeal.Hand.mem_uc Cert.KernelIdeal.main_v11 (by decide))).trans (Cert.KernelIdeal.HandValue.kernel_value m ρ c),
     (h c _ (Cert.KernelIdeal.Hand.mem_uc Cert.KernelIdeal.main_arg0 (by decide))).trans (Cert.KernelIdeal.Hand.W7_main_arg0 m ρ c),
     (h c _ (Cert.KernelIdeal.Hand.mem_uc Cert.KernelIdeal.main_arg1 (by decide))).trans (Cert.KernelIdeal.Hand.W7_main_arg1 m ρ c),
     (h c _ (Cert.KernelIdeal.Hand.mem_uc Cert.KernelIdeal.main_arg2 (by decide))).trans (Cert.KernelIdeal.Hand.W7_main_arg2 m ρ c),
     (h c _ (Cert.KernelIdeal.Hand.mem_uc Cert.KernelIdeal.main_arg3 (by decide))).trans (Cert.KernelIdeal.Hand.W7_main_arg3 m ρ c),
     (h c _ (Cert.KernelIdeal.Hand.mem_uc Cert.KernelIdeal.main_arg4 (by decide))).trans (Cert.KernelIdeal.Hand.W7_main_arg4 m ρ c)⟩)
    (Cert.KernelIdeal.Hand.run_all (F := Ideal) m ρ)

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.RefClaims.frame_ri, trivial, algebraic⟩

end Cert.Proof

end
